-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x64 : Shape := ⟨2, ![64, 64]⟩
abbrev S4096x1 : Shape := ⟨2, ![4096, 1]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part2 {F : FTy → Type} [FloatOps F] (main_arg7 : FVec F S4096x1 .f32) (main_arg8 : FVec F S4096x1 .f32) (main_v33 : IVec S_ 1) : IVec S_ 1 :=
  let main_v34 : FVec F S4096x1 .f32 := Host.absf main_arg7
  let main_cst_12 : FVec F S_ .f32 := constant S_ .f32 0x7F800000#32
  let main_v35 : FVec F S4096x1 .f32 := broadcastInDim S4096x1 ![] bcast_S_S4096x1 main_cst_12
  let main_v36 : IVec S4096x1 1 := cmpf .olt main_v34 main_v35
  let main_c_13 : IVec S_ 1 := constantI S_ 1 1#1
  let main_v37 : IVec S_ 1 := (fun x v => Host.reduce IntOp.andi x v reducesTo_S4096x1_S_d0_1 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  main_v43

def fn_part1 {F : FTy → Type} [FloatOps F] (main_arg4 : FVec F S4096x4096 .f32) (main_arg5 : FVec F S64x64 .f32) (main_arg6 : FVec F S64x64 .f32) (main_arg7 : FVec F S4096x1 .f32) (main_arg8 : FVec F S4096x1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_v33

def fn {F : FTy → Type} [FloatOps F] (main_arg0 : FVec F S4096x64 .f32) (main_arg1 : FVec F S4096x4096 .f32) (main_arg2 : FVec F S4096x4096 .f32) (main_arg3 : FVec F S4096x4096 .f32) (main_arg4 : FVec F S4096x4096 .f32) (main_arg5 : FVec F S64x64 .f32) (main_arg6 : FVec F S64x64 .f32) (main_arg7 : FVec F S4096x1 .f32) (main_arg8 : FVec F S4096x1 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S4096x64 : Shape := ⟨2, ![4096, 64]⟩
abbrev S4096x4096 : Shape := ⟨2, ![4096, 4096]⟩
abbrev S64x64 : Shape := ⟨2, ![64, 64]⟩
abbrev S4096x1 : Shape := ⟨2, ![4096, 1]⟩
abbrev S1x4096 : Shape := ⟨2, ![1, 4096]⟩
abbrev S2x4096x64 : Shape := ⟨3, ![2, 4096, 64]⟩
abbrev S128x4096 : Shape := ⟨2, ![128, 4096]⟩
abbrev S2x128x64 : Shape := ⟨3, ![2, 128, 64]⟩
abbrev S64x4096 : Shape := ⟨2, ![64, 4096]⟩
abbrev S64x128 : Shape := ⟨2, ![64, 128]⟩
abbrev S1x128 : Shape := ⟨2, ![1, 128]⟩
abbrev S128x64 : Shape := ⟨2, ![128, 64]⟩
abbrev S1x128x64 : Shape := ⟨3, ![1, 128, 64]⟩

abbrev nBuf : Space → Nat
  | .hbm => 12
  | .vmem => 19
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S64x64, .f32⟩
  | .hbm, ⟨6, _⟩ => ⟨S64x64, .f32⟩
  | .hbm, ⟨7, _⟩ => ⟨S4096x1, .f32⟩
  | .hbm, ⟨8, _⟩ => ⟨S4096x1, .f32⟩
  | .hbm, ⟨9, _⟩ => ⟨S1x4096, .f32⟩
  | .hbm, ⟨10, _⟩ => ⟨S1x4096, .f32⟩
  | .hbm, ⟨11, _⟩ => ⟨S2x4096x64, .f32⟩
  | .local _ .vmem, ⟨0, _⟩ => ⟨S4096x64, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S64x64, .f32⟩
  | .local _ .vmem, ⟨10, _⟩ => ⟨S64x64, .f32⟩
  | .local _ .vmem, ⟨11, _⟩ => ⟨S1x4096, .f32⟩
  | .local _ .vmem, ⟨12, _⟩ => ⟨S1x4096, .f32⟩
  | .local _ .vmem, ⟨13, _⟩ => ⟨S2x128x64, .f32⟩
  | .local _ .vmem, ⟨14, _⟩ => ⟨S2x128x64, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let c0_8 : Index := 0#32
  let arg1 : BitVec 32 := BitVec.ofNat 32 (i 1).val
  let c128_i32 : BitVec 32 := 128#32
  let v14 : BitVec 32 := Scalar.muli arg1 c128_i32
  let v15 : Index := Scalar.indexCast v14
  ![0, v15.toNat]
def k0_off2 (i : grid0.Coords) : Fin 2 → Nat :=
  let c0_10 : Index := 0#32
  let arg1 : BitVec 32 := BitVec.ofNat 32 (i 1).val
  let c128_i32_9 : BitVec 32 := 128#32
  let v20 : BitVec 32 := Scalar.muli arg1 c128_i32_9
  let v21 : Index := Scalar.indexCast v20
  ![0, v21.toNat]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c31_i32 : BitVec 32 := 31#32
  let v2 : BitVec 32 := Scalar.select v1 arg1 c31_i32
  let c0_i32_1 : BitVec 32 := 0#32
  let v3 : BitVec 32 := Scalar.select v0 c0_i32_1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c31_i32 : BitVec 32 := 31#32
  let v2 : BitVec 32 := Scalar.select v1 arg1 c31_i32
  let c0_i32_1 : BitVec 32 := 0#32
  let v3 : BitVec 32 := Scalar.select v0 c0_i32_1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c31_i32 : BitVec 32 := 31#32
  let v2 : BitVec 32 := Scalar.select v1 arg1 c31_i32
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c31_i32 : BitVec 32 := 31#32
  let v2 : BitVec 32 := Scalar.select v1 arg1 c31_i32
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S4096x1_S1x4096 : S4096x1.ShapeCasts S1x4096
  inb_S64x64_S64x64_0_0 : ∀ a, (![0, 0] : Fin 2 → Nat) a + S64x64.size a ≤ S64x64.size a
  h_S64x64 : 0 < S64x64.numel
  inb_S4096x64_S4096x64_0_0 : ∀ a, (![0, 0] : Fin 2 → Nat) a + S4096x64.size a ≤ S4096x64.size a
  h_S4096x64 : 0 < S4096x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S128x4096_S128x4096_0_0 : ∀ a, (![0, 0] : Fin 2 → Nat) a + S128x4096.size a ≤ S128x4096.size a
  h_S128x4096 : 0 < S128x4096.numel
  h_S1x128 : 0 < S1x128.numel
  shapeCasts_S1x128_S1x128 : S1x128.ShapeCasts S1x128
  broadcasts_S1x128_S64x128 : S1x128.Broadcasts S64x128
  h_S64x128 : 0 < S64x128.numel
  shapeCasts_S64x128_S64x128 : S64x128.ShapeCasts S64x128
  transposes_S64x128_p1_0_S128x64 : S64x128.Transposes [1, 0] S128x64
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  shapeCasts_S128x64_S1x128x64 : S128x64.ShapeCasts S1x128x64
  inb_S2x128x64_S1x128x64_1_0_0 : ∀ a, (![1, 0, 0] : Fin 3 → Nat) a + S1x128x64.size a ≤ S2x128x64.size a
  dot_S64x64_S4096x64_S64x4096_0_1_1_0_n_n_wf : DotDims.WF S64x64 S4096x64 S64x4096 [0] [1] [1] [0] [] []
  dot_S64x4096_S128x4096_S64x128_1_1_0_0_n_n_wf : DotDims.WF S64x4096 S128x4096 S64x128 [1] [1] [0] [0] [] []
  hrank0 : 0 < grid0.rank
  k0_off1_inb : ∀ i : grid0.Coords, ∀ (k0_h2 : k0_cond2 i = 1#1), ∀ a, (k0_off1 i) a + S1x128.size a ≤ S1x4096.size a
  k0_off2_inb : ∀ i : grid0.Coords, ∀ (k0_h2 : k0_cond2 i = 1#1), ∀ a, (k0_off2 i) a + S64x128.size a ≤ S64x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x128x64.size a ≤ S2x4096x64.size a
  hwx0_9 : ∀ i : grid0.Coords, EltTy.bits .f32 = 32 ∨ (Rect.block (s := S2x4096x64) S2x128x64.size (cc0_transform_9 i) (hinb0_9 i)).WholeWords (EltTy.packing .f32)

variable [Facts₀]

def dot_S64x64_S4096x64_S64x4096_0_1_1_0_n_n : DotDims S64x64 S4096x64 S64x4096 where
  lhsContracting := [0]
  rhsContracting := [1]
  lhsNonContracting := [1]
  rhsNonContracting := [0]
  lhsBatch := []
  rhsBatch := []
  wf := dot_S64x64_S4096x64_S64x4096_0_1_1_0_n_n_wf
def dot_S64x4096_S128x4096_S64x128_1_1_0_0_n_n : DotDims S64x4096 S128x4096 S64x128 where
  lhsContracting := [1]
  rhsContracting := [1]
  lhsNonContracting := [0]
  rhsNonContracting := [0]
  lhsBatch := []
  rhsBatch := []
  wf := dot_S64x4096_S128x4096_S64x128_1_1_0_0_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S2x128x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S64x64 : Shape := ⟨2, ![64, 64]⟩
abbrev S4096x1 : Shape := ⟨2, ![4096, 1]⟩
abbrev S1x4096x64 : Shape := ⟨3, ![1, 4096, 64]⟩
abbrev S2x4096x64 : Shape := ⟨3, ![2, 4096, 64]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S64x64, .f32⟩
  | .hbm, ⟨6, _⟩ => ⟨S64x64, .f32⟩
  | .hbm, ⟨7, _⟩ => ⟨S4096x1, .f32⟩
  | .hbm, ⟨8, _⟩ => ⟨S4096x1, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S1x4096x64, .f32⟩
  | .hbm, ⟨20, _⟩ => ⟨S1x4096x64, .f32⟩
  | .hbm, ⟨21, _⟩ => ⟨S2x4096x64, .f32⟩
  | .hbm, ⟨22, _⟩ => ⟨S_, .f32⟩
  | .hbm, ⟨23, _⟩ => ⟨S2x4096x64, .f32⟩
  | .hbm, ⟨24, _⟩ => ⟨S2x4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S4096x1_S4096x64_0_1 : S4096x1.BroadcastsInDim S4096x64 (![0, 1] : Fin 2 → Fin S4096x64.rank)
  bcast_S4096x64_S1x4096x64_1_2 : S4096x64.BroadcastsInDim S1x4096x64 (![1, 2] : Fin 2 → Fin S1x4096x64.rank)
  concatenates_S1x4096x64_S1x4096x64_S2x4096x64_d0 : Shape.Concatenates [S1x4096x64, S1x4096x64] S2x4096x64 0
  bcast_S_S2x4096x64 : S_.BroadcastsInDim S2x4096x64 (![] : Fin 0 → Fin S2x4096x64.rank)
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.K.Sched.lean ====
/-
  The grid of the kernel is 2 x 32, walked row-major as 64 points: the first 32 points are the first pass
  (pass index 0, column block t), the last 32 the second pass (pass index 1, column block t - 32). This module
  decides, over that grid, where each of the body's three conditionals is taken, which column block a point
  addresses, and where the output window is idle and where it is written back; and names the staging and scratch
  buffers the body is handed.
-/
import proofs.«116479_g53661321397056_cont_9to1_m_18_15_alg».proof.Proof.Gen.Kernel.Frame
import proofs.«116479_g53661321397056_cont_9to1_m_18_15_alg».proof.Proof.Gen.Kernel.Skeleton

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the body's conditionals are taken -/

/-- Both grid coordinates are zero: the point that computes the two projected inputs. -/
abbrev AtStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem atStart_iff : ∀ t : Fin cfg0.N, AtStart (grid0.coords t) ↔ t.val = 0 :=
  (by decide +kernel : ∀ t : Fin grid0.N, AtStart (grid0.coords t) ↔ t.val = 0)

/-- The pass index is 0: a point of the first pass. -/
abbrev InFirstPass (i : grid0.Coords) : Prop := k0_cond2 i = 1#1
theorem inFirstPass_iff : ∀ t : Fin cfg0.N, InFirstPass (grid0.coords t) ↔ t.val < 32 :=
  (by decide +kernel : ∀ t : Fin grid0.N, InFirstPass (grid0.coords t) ↔ t.val < 32)

/-- The pass index is 1: a point of the second pass. -/
abbrev InSecondPass (i : grid0.Coords) : Prop := k0_cond3 i = 1#1
theorem inSecondPass_iff : ∀ t : Fin cfg0.N, InSecondPass (grid0.coords t) ↔ 32 ≤ t.val :=
  (by decide +kernel : ∀ t : Fin grid0.N, InSecondPass (grid0.coords t) ↔ 32 ≤ t.val)

/-- The column block a point addresses is its position within its pass. -/
theorem colBlock : ∀ t : Fin cfg0.N, ((grid0.coords t) 1).val = t.val % 32 :=
  (by decide +kernel : ∀ t : Fin grid0.N, ((grid0.coords t) 1).val = t.val % 32)

theorem N_eq : cfg0.N = 64 := N_0

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
/-- The output window is idle exactly in the first pass, -/
theorem outIdle_first : ∀ t : Fin cfg0.N, t.val < 32 → cfg0.idle 9 (grid0.coords t) = true :=
  (by decide +kernel : ∀ t : Fin grid0.N, t.val < 32 → cfg0.idle 9 (grid0.coords t) = true)
theorem outLive_second : ∀ t : Fin cfg0.N, 32 ≤ t.val → cfg0.idle 9 (grid0.coords t) = false :=
  (by decide +kernel : ∀ t : Fin grid0.N, 32 ≤ t.val → cfg0.idle 9 (grid0.coords t) = false)
/-- and written back after every point of the second pass and after none of the first. -/
theorem outFlush_iff : ∀ t : Fin cfg0.N, (cfg0.win 9).flush t = true ↔ 32 ≤ t.val :=
  (by decide +kernel : ∀ t : Fin grid0.N, win0_9.flush t = true ↔ 32 ≤ t.val)
theorem outFlush_first (t : Fin cfg0.N) (h : t.val < 32) : (cfg0.win 9).flush t = false := by
  cases hf : (cfg0.win 9).flush t
  · rfl
  · have := (outFlush_iff t).mp hf; omega

/-! ## The buffers the body is handed -/

abbrev stg0 (t : Fin cfg0.N) : Memref sig .tc .vmem S4096x64 .f32 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S128x4096 .f32 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S128x4096 .f32 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S128x4096 .f32 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S128x4096 .f32 := win0_4.stage (cfg0.slots t 4)
abbrev stgWhole4 (t : Fin cfg0.N) : (stg4 t).IsWhole := hstage0_4 ((cfg0.slots t 4).cast nbuf0_4)
abbrev stg5 (t : Fin cfg0.N) : Memref sig .tc .vmem S64x64 .f32 := win0_5.stage (cfg0.slots t 5)
abbrev stgWhole5 (t : Fin cfg0.N) : (stg5 t).IsWhole := hstage0_5 ((cfg0.slots t 5).cast nbuf0_5)
abbrev stg6 (t : Fin cfg0.N) : Memref sig .tc .vmem S64x64 .f32 := win0_6.stage (cfg0.slots t 6)
abbrev stgWhole6 (t : Fin cfg0.N) : (stg6 t).IsWhole := hstage0_6 ((cfg0.slots t 6).cast nbuf0_6)
abbrev stg7 (t : Fin cfg0.N) : Memref sig .tc .vmem S1x4096 .f32 := win0_7.stage (cfg0.slots t 7)
abbrev stgWhole7 (t : Fin cfg0.N) : (stg7 t).IsWhole := hstage0_7 ((cfg0.slots t 7).cast nbuf0_7)
abbrev stg8 (t : Fin cfg0.N) : Memref sig .tc .vmem S1x4096 .f32 := win0_8.stage (cfg0.slots t 8)
abbrev stgWhole8 (t : Fin cfg0.N) : (stg8 t).IsWhole := hstage0_8 ((cfg0.slots t 8).cast nbuf0_8)
abbrev stg9 (t : Fin cfg0.N) : Memref sig .tc .vmem S2x128x64 .f32 := win0_9.stage (cfg0.slots t 9)
abbrev stgWhole9 (t : Fin cfg0.N) : (stg9 t).IsWhole := hstage0_9 ((cfg0.slots t 9).cast nbuf0_9)
/-- The four scratch buffers: the two projected inputs (rows = output features, columns = nodes) and the two
    transformed, scaled intermediates of the same layout. -/
abbrev projBuf0 : Memref sig .tc .vmem S64x4096 .f32 := Memref.whole cc0_scratch0
abbrev projBuf1 : Memref sig .tc .vmem S64x4096 .f32 := Memref.whole cc0_scratch1
abbrev midBuf0 : Memref sig .tc .vmem S64x4096 .f32 := Memref.whole cc0_scratch2
abbrev midBuf1 : Memref sig .tc .vmem S64x4096 .f32 := Memref.whole cc0_scratch3

/-- What the launch hands the region: the four scratch buffers at some contents and the generator register. -/
theorem scratchAny_eq (c : Dev nD) :
    (Pipeline.ΦA spec0 c : sProp 𝕄)
      = iprop(iprop((∃ d, owns (c : Thread nD τ) projBuf0 fullShare d) ∗ (∃ d, owns (c : Thread nD τ) projBuf1 fullShare d) ∗ (∃ d, owns (c : Thread nD τ) midBuf0 fullShare d) ∗ (∃ d, owns (c : Thread nD τ) midBuf1 fullShare d)) ∗ (∃ r, prngReg c r)) := by
  unfold Pipeline.ΦA; rw [scopedRest0_eq]; simp only [projBuf0, projBuf1, midBuf0, midBuf1, owns_whole]; try rfl

end Cert.Kernel.Carry

end
-- ==== Proof.K.RunStart.lean ====
/-
  The body at the first grid point. All three of its stages that belong to the first pass run: it computes the two
  projected inputs (each weight matrix transposed times the input transposed) and stores each over the whole of
  its scratch buffer, then computes column block 0 of the two scaled intermediates from them and stores it into
  columns 0..127 of the other two scratch buffers. The output buffer is not touched.
-/
import proofs.«116479_g53661321397056_cont_9to1_m_18_15_alg».proof.Proof.K.Sched

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at the first point, on whole buffers: the inputs at their contents, the output buffer at `x9`, the two
    projection buffers at anything, the two intermediate buffers at `y0`, `y1`. It ends with the inputs and the output
    buffer as they were and each scratch buffer with the stores made into it (found by the run, last store first). -/
noncomputable def runStart (c : Dev nD) (i : grid0.Coords) (arg2 : Memref sig .tc .vmem S4096x64 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x128x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole) (hc0 : AtStart i) (hc1 : InFirstPass i) (hc2 : ¬InSecondPass i)
    (x0 : Vec F S4096x64 .f32) (x1 : Vec F S128x4096 .f32) (x2 : Vec F S128x4096 .f32) (x3 : Vec F S128x4096 .f32) (x4 : Vec F S128x4096 .f32) (x5 : Vec F S64x64 .f32) (x6 : Vec F S64x64 .f32) (x7 : Vec F S1x4096 .f32) (x8 : Vec F S1x4096 .f32) (x9 : Vec F S2x128x64 .f32) (y0 y1 : Vec F S64x4096 .f32) :
    Σ' (LS0 LS1 LS2 : List (View.Piece (Elt F) S64x4096 .f32)), { LS3 : List (View.Piece (Elt F) S64x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y0 ∗ owns (c : Thread nD τ) arg15 fullShare y1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (arg14.view.loc (c : Thread nD τ) ↦[arg14.view.set]{fullShare} arg14.view.writes (Elt F) (harg14.unread y0) LS2) ∗ (arg15.view.loc (c : Thread nD τ) ↦[arg15.view.set]{fullShare} arg15.view.writes (Elt F) (harg15.unread y1) LS3)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs2; obtain rfl := harg15.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    isplitl [HS2]; · iexact HS2
    iexact HS3

end Cert.Kernel.Carry

end
-- ==== Proof.K.RunFirst.lean ====
/-
  The body at a later point of the first pass. Only the middle stage runs: from the two projected inputs (read whole
  from their scratch buffers, which it leaves alone) and the point's 128-row blocks of the two inverse bases it
  computes the point's column block of the two scaled intermediates and stores it into that column block of the
  other two scratch buffers. The output buffer is not touched.
-/
import proofs.«116479_g53661321397056_cont_9to1_m_18_15_alg».proof.Proof.K.RunStart

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a later point of the first pass, on whole buffers: the inputs at their contents, the output buffer at
    `x9`, the projection buffers at `p0`, `p1`, the intermediate buffers at `y0`, `y1`. It ends with everything as it was
    except the intermediate buffers, each with the one store made into it. -/
noncomputable def runFirst (c : Dev nD) (i : grid0.Coords) (arg2 : Memref sig .tc .vmem S4096x64 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x128x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole) (hc0 : ¬AtStart i) (hc1 : InFirstPass i) (hc2 : ¬InSecondPass i)
    (x0 : Vec F S4096x64 .f32) (x1 : Vec F S128x4096 .f32) (x2 : Vec F S128x4096 .f32) (x3 : Vec F S128x4096 .f32) (x4 : Vec F S128x4096 .f32) (x5 : Vec F S64x64 .f32) (x6 : Vec F S64x64 .f32) (x7 : Vec F S1x4096 .f32) (x8 : Vec F S1x4096 .f32) (x9 : Vec F S2x128x64 .f32) (p0 p1 y0 y1 : Vec F S64x4096 .f32) :
    Σ' (LS2 : List (View.Piece (Elt F) S64x4096 .f32)), { LS3 : List (View.Piece (Elt F) S64x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare p0 ∗ owns (c : Thread nD τ) arg13 fullShare p1 ∗ owns (c : Thread nD τ) arg14 fullShare y0 ∗ owns (c : Thread nD τ) arg15 fullShare y1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare p0 ∗ owns (c : Thread nD τ) arg13 fullShare p1 ∗ (arg14.view.loc (c : Thread nD τ) ↦[arg14.view.set]{fullShare} arg14.view.writes (Elt F) (harg14.unread y0) LS2) ∗ (arg15.view.loc (c : Thread nD τ) ↦[arg15.view.set]{fullShare} arg15.view.writes (Elt F) (harg15.unread y1) LS3)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]
    · iexists _; isplitr; · ipureintro; exact harg13.read_unread _
      iexact HS1
    isplitl [HS2]; · iexact HS2
    iexact HS3

end Cert.Kernel.Carry

end
-- ==== Proof.K.RunSecond.lean ====
/-
  The body at a point of the second pass. Only the last stage runs: from the two scaled intermediates (read whole
  from their scratch buffers, which it leaves alone) and the point's 128-row blocks of the two bases it computes,
  for each scale, the point's 128 output rows (clamped below at zero, transposed to rows = nodes) and stores the
  two results as the two slabs of the output buffer, which together fill it.
-/
import proofs.«116479_g53661321397056_cont_9to1_m_18_15_alg».proof.Proof.K.RunFirst

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a point of the second pass, on whole buffers: the inputs at their contents, the output buffer at
    anything, the four scratch buffers at `p0`, `p1`, `y0`, `y1`. It ends with everything as it was except the output
    buffer, which holds the two stores made into it. -/
noncomputable def runSecond (c : Dev nD) (i : grid0.Coords) (arg2 : Memref sig .tc .vmem S4096x64 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x128x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole) (hc0 : ¬AtStart i) (hc1 : ¬InFirstPass i) (hc2 : InSecondPass i)
    (x0 : Vec F S4096x64 .f32) (x1 : Vec F S128x4096 .f32) (x2 : Vec F S128x4096 .f32) (x3 : Vec F S128x4096 .f32) (x4 : Vec F S128x4096 .f32) (x5 : Vec F S64x64 .f32) (x6 : Vec F S64x64 .f32) (x7 : Vec F S1x4096 .f32) (x8 : Vec F S1x4096 .f32) (p0 p1 y0 y1 : Vec F S64x4096 .f32) :
    { LO : List (View.Piece (Elt F) S2x128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare p0 ∗ owns (c : Thread nD τ) arg13 fullShare p1 ∗ owns (c : Thread nD τ) arg14 fullShare y0 ∗ owns (c : Thread nD τ) arg15 fullShare y1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f LO) ∗ owns (c : Thread nD τ) arg12 fullShare p0 ∗ owns (c : Thread nD τ) arg13 fullShare p1 ∗ owns (c : Thread nD τ) arg14 fullShare y0 ∗ owns (c : Thread nD τ) arg15 fullShare y1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2; obtain rfl := harg15.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3

end Cert.Kernel.Carry

end
-- ==== Proof.K.Contents.lean ====
/-
  What the three runs leave in the buffers they store into, in closed form.
  * At the first point each projection buffer, stored whole, holds the projected input of its weight.
  * At every point of the first pass each intermediate buffer is changed only in the point's column block, which
    then holds the block of the scaled intermediate computed from the projection, the point's inverse-basis block
    and the point's 128 scale factors; every other column keeps what it held.
  * At a point of the second pass the output buffer, stored as two slabs that fill it, holds for each scale the slab
    computed from that scale's intermediate and the point's basis block.
-/
import proofs.«116479_g53661321397056_cont_9to1_m_18_15_alg».proof.Proof.K.RunSecond
import Idealize.ShloMosaic.Lib.WritesUnit
import Idealize.ShloMosaic.Lib.Pipeline.Value
import Idealize.ShloMosaic.Lib.Ring

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → ℕ) = fun _ => 0 := funext fun a => by fin_cases a <;> rfl

/-- The 128 scale factors of the column block a first-pass point addresses, out of all 4096. -/
def scaleBlock (i : grid0.Coords) (h : InFirstPass i) (k : Vec F S1x4096 .f32) : Vec F S1x128 .f32 :=
  View.ld k (Rect.unit (s := S1x4096) (k0_off1 i) S1x128.size (k0_off1_inb i h))

/-- The output buffer after a second-pass point: slab 0 from the first intermediate and basis block, slab 1 from
    the second. -/
def outSlabs (y0 y1 : Vec F S64x4096 .f32) (b0 b1 : Vec F S128x4096 .f32) : Vec F S2x128x64 .f32 :=
  View.canon [⟨Rect.unit (s := S2x128x64) ![1, 0, 0] S1x128x64.size inb_S2x128x64_S1x128x64_1_0_0, k0_pay6 y1 b1⟩,
    ⟨Rect.unit (s := S2x128x64) ![0, 0, 0] S1x128x64.size inb_S2x128x64_S1x128x64_0_0_0, k0_pay5 y0 b0⟩]

section
variable (c : Dev nD) (i : grid0.Coords) (arg2 : Memref sig .tc .vmem S4096x64 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x128x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole) (x0 : Vec F S4096x64 .f32) (x1 : Vec F S128x4096 .f32) (x2 : Vec F S128x4096 .f32) (x3 : Vec F S128x4096 .f32) (x4 : Vec F S128x4096 .f32) (x5 : Vec F S64x64 .f32) (x6 : Vec F S64x64 .f32) (x7 : Vec F S1x4096 .f32) (x8 : Vec F S1x4096 .f32)

/-! ## The first point -/

section Start
variable (hc0 : AtStart i) (hc1 : InFirstPass i) (hc2 : ¬InSecondPass i) (x9 : Vec F S2x128x64 .f32) (y0 y1 : Vec F S64x4096 .f32)

theorem start_proj0 (f : arg12.view.ty.Contents (Elt F)) :
    arg12.view.read (Elt F) (arg12.view.writes (Elt F) f (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).1) = k0_pay1 x5 x0 := by
  unfold runStart; dsimp only; unfold runStart.sl.HS0_1
  rw [View.read_writes_eq_canon _ _ _ (fun y => ⟨_, List.mem_singleton_self _, View.mem_set_unit_zero zero2 inb_S64x4096_S64x4096_0_0 y⟩),
    View.canon_unit_zero zero2]
  simp only [View.readAt_eq_ld, Memref.IsWhole.read_unread, View.ld_unit_zero (S := S64x64) zero2, View.ld_unit_zero (S := S4096x64) zero2, View.ld_unit_zero (S := S128x4096) zero2, View.ld_unit_zero (S := S64x4096) zero2]

theorem start_proj1 (f : arg13.view.ty.Contents (Elt F)) :
    arg13.view.read (Elt F) (arg13.view.writes (Elt F) f (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.1) = k0_pay2 x6 x0 := by
  unfold runStart; dsimp only; unfold runStart.sl.HS1_1
  rw [View.read_writes_eq_canon _ _ _ (fun y => ⟨_, List.mem_singleton_self _, View.mem_set_unit_zero zero2 inb_S64x4096_S64x4096_0_0 y⟩),
    View.canon_unit_zero zero2]
  simp only [View.readAt_eq_ld, Memref.IsWhole.read_unread, View.ld_unit_zero (S := S64x64) zero2, View.ld_unit_zero (S := S4096x64) zero2, View.ld_unit_zero (S := S128x4096) zero2, View.ld_unit_zero (S := S64x4096) zero2]

theorem start_mid0_in (x : S64x128.Idx) (y : S64x4096.Idx) (hx : ∀ a, (y a).val = k0_off2 i a + (x a).val) :
    arg14.view.read (Elt F) (arg14.view.writes (Elt F) (harg14.unread y0) (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.2.1) y
      = k0_pay3 (k0_pay1 x5 x0) x1 (scaleBlock i hc1 x7) x := by
  unfold runStart; dsimp only; unfold runStart.sl.v11 runStart.sl.HS0_1
  refine (View.read_writes_cons_unit_of_mem _ _ _ _ _ y x rfl hx).trans ?_
  rw [View.readCov_unit_zero _ zero2]
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

theorem start_mid0_out (y : S64x4096.Idx) (a : Fin 2) (ha : (y a).val < k0_off2 i a ∨ k0_off2 i a + S64x128.size a ≤ (y a).val) :
    arg14.view.read (Elt F) (arg14.view.writes (Elt F) (harg14.unread y0) (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.2.1) y = y0 y := by
  unfold runStart; dsimp only
  refine (View.read_writes_cons_unit_of_not_mem _ _ _ _ _ y rfl a ha).trans ?_
  rw [View.writes_nil, Memref.IsWhole.read_unread]

theorem start_mid1_in (x : S64x128.Idx) (y : S64x4096.Idx) (hx : ∀ a, (y a).val = k0_off2 i a + (x a).val) :
    arg15.view.read (Elt F) (arg15.view.writes (Elt F) (harg15.unread y1) (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.2.2.1) y
      = k0_pay4 (k0_pay2 x6 x0) x2 (scaleBlock i hc1 x8) x := by
  unfold runStart; dsimp only; unfold runStart.sl.v25 runStart.sl.HS1_1
  refine (View.read_writes_cons_unit_of_mem _ _ _ _ _ y x rfl hx).trans ?_
  rw [View.readCov_unit_zero _ zero2]
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

theorem start_mid1_out (y : S64x4096.Idx) (a : Fin 2) (ha : (y a).val < k0_off2 i a ∨ k0_off2 i a + S64x128.size a ≤ (y a).val) :
    arg15.view.read (Elt F) (arg15.view.writes (Elt F) (harg15.unread y1) (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.2.2.1) y = y1 y := by
  unfold runStart; dsimp only
  refine (View.read_writes_cons_unit_of_not_mem _ _ _ _ _ y rfl a ha).trans ?_
  rw [View.writes_nil, Memref.IsWhole.read_unread]

end Start

/-! ## A later point of the first pass -/

section First
variable (hc0 : ¬AtStart i) (hc1 : InFirstPass i) (hc2 : ¬InSecondPass i) (x9 : Vec F S2x128x64 .f32) (p0 p1 y0 y1 : Vec F S64x4096 .f32)

theorem first_mid0_in (x : S64x128.Idx) (y : S64x4096.Idx) (hx : ∀ a, (y a).val = k0_off2 i a + (x a).val) :
    arg14.view.read (Elt F) (arg14.view.writes (Elt F) (harg14.unread y0) (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 p0 p1 y0 y1).1) y
      = k0_pay3 p0 x1 (scaleBlock i hc1 x7) x := by
  unfold runFirst; dsimp only
  refine (View.read_writes_cons_unit_of_mem _ _ _ _ _ y x rfl hx).trans ?_
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

theorem first_mid0_out (y : S64x4096.Idx) (a : Fin 2) (ha : (y a).val < k0_off2 i a ∨ k0_off2 i a + S64x128.size a ≤ (y a).val) :
    arg14.view.read (Elt F) (arg14.view.writes (Elt F) (harg14.unread y0) (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 p0 p1 y0 y1).1) y = y0 y := by
  unfold runFirst; dsimp only
  refine (View.read_writes_cons_unit_of_not_mem _ _ _ _ _ y rfl a ha).trans ?_
  rw [View.writes_nil, Memref.IsWhole.read_unread]

theorem first_mid1_in (x : S64x128.Idx) (y : S64x4096.Idx) (hx : ∀ a, (y a).val = k0_off2 i a + (x a).val) :
    arg15.view.read (Elt F) (arg15.view.writes (Elt F) (harg15.unread y1) (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 p0 p1 y0 y1).2.1) y
      = k0_pay4 p1 x2 (scaleBlock i hc1 x8) x := by
  unfold runFirst; dsimp only
  refine (View.read_writes_cons_unit_of_mem _ _ _ _ _ y x rfl hx).trans ?_
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

theorem first_mid1_out (y : S64x4096.Idx) (a : Fin 2) (ha : (y a).val < k0_off2 i a ∨ k0_off2 i a + S64x128.size a ≤ (y a).val) :
    arg15.view.read (Elt F) (arg15.view.writes (Elt F) (harg15.unread y1) (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 p0 p1 y0 y1).2.1) y = y1 y := by
  unfold runFirst; dsimp only
  refine (View.read_writes_cons_unit_of_not_mem _ _ _ _ _ y rfl a ha).trans ?_
  rw [View.writes_nil, Memref.IsWhole.read_unread]

end First

/-! ## A point of the second pass -/

section Second
variable (hc0 : ¬AtStart i) (hc1 : ¬InFirstPass i) (hc2 : InSecondPass i) (p0 p1 y0 y1 : Vec F S64x4096 .f32)

theorem second_out (f : arg11.view.ty.Contents (Elt F)) :
    arg11.view.read (Elt F) (arg11.view.writes (Elt F) f (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 p0 p1 y0 y1).1) = outSlabs y0 y1 x3 x4 := by
  unfold runSecond; dsimp only
  refine (View.read_writes_eq_canon (Val := Elt F) arg11.view f _ (View.cover_of_tiledL _ S1x128x64.size (by sl_kernel_rfl))).trans ?_
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

end Second
end

end Cert.Kernel.Carry

end
-- ==== Proof.K.Invariant.lean ====
/-
  What the four scratch buffers hold between grid points, and the pipeline's proof data.
  After the first point each projection buffer holds, for good, the projected input of its weight. After point n of
  the first pass each intermediate buffer agrees with the scaled intermediate (the whole [64, 4096] array whose
  column block t is what point t computes) on columns 0 .. 128 (n + 1) - 1 and holds anything to the right; from
  the end of the first pass on it is that array. The output window's buffer after a second-pass point holds the two
  slabs computed from the two intermediates and the point's basis blocks.
-/
import proofs.«116479_g53661321397056_cont_9to1_m_18_15_alg».proof.Proof.K.Contents
import Idealize.ShloMosaic.Lib.ValueIdx

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The named contents -/

/-- Point number n of the first pass, as a grid point. -/
def firstPt (n : ℕ) (hn : n < 32) : Fin cfg0.N := ⟨n, by rw [N_eq]; omega⟩

/-- The first grid point. -/
abbrev startPt : Fin cfg0.N := firstPt 0 (by omega)

/-- The two projected inputs, from the weights and the input as the region finds them. -/
def proj0 (c : Dev nD) : Vec F S64x4096 .f32 := k0_pay1 (iblk m c 5 startPt) (iblk m c 0 startPt)
def proj1 (c : Dev nD) : Vec F S64x4096 .f32 := k0_pay2 (iblk m c 6 startPt) (iblk m c 0 startPt)

/-- Column block n of each scaled intermediate: from the projection, the inverse basis' row block n and the scale
    factors of block n. -/
def midBlock0 (c : Dev nD) (n : ℕ) (hn : n < 32) : Vec F S64x128 .f32 :=
  k0_pay3 (proj0 m c) (iblk m c 1 (firstPt n hn)) (scaleBlock (grid0.coords (firstPt n hn)) ((inFirstPass_iff _).mpr hn) (iblk m c 7 (firstPt n hn)))
def midBlock1 (c : Dev nD) (n : ℕ) (hn : n < 32) : Vec F S64x128 .f32 :=
  k0_pay4 (proj1 m c) (iblk m c 2 (firstPt n hn)) (scaleBlock (grid0.coords (firstPt n hn)) ((inFirstPass_iff _).mpr hn) (iblk m c 8 (firstPt n hn)))

theorem midBlock0_congr (c : Dev nD) {n n' : ℕ} (e : n = n') (hn : n < 32) (hn' : n' < 32) : midBlock0 m c n hn = midBlock0 m c n' hn' := by
  subst e; rfl
theorem midBlock1_congr (c : Dev nD) {n n' : ℕ} (e : n = n') (hn : n < 32) (hn' : n' < 32) : midBlock1 m c n hn = midBlock1 m c n' hn' := by
  subst e; rfl

/-- The position of column y within its block of 128. -/
def inBlock (y : S64x4096.Idx) : S64x128.Idx :=
  ValueIdx.ix2 (n0 := 64) (n1 := 128) (y 0) ⟨(y 1).val % 128, Nat.mod_lt _ (by norm_num)⟩

theorem blockOf_lt (y : S64x4096.Idx) : (y 1).val / 128 < 32 := by
  have h := ValueIdx.idx2_lt1 y; omega

/-- The two scaled intermediates, whole: column y lies in block y / 128 at position y % 128. -/
def mid0 (c : Dev nD) : Vec F S64x4096 .f32 := fun y => midBlock0 m c ((y 1).val / 128) (blockOf_lt y) (inBlock y)
def mid1 (c : Dev nD) : Vec F S64x4096 .f32 := fun y => midBlock1 m c ((y 1).val / 128) (blockOf_lt y) (inBlock y)

/-- The buffer `b` agrees with the array `full` on the first k column blocks. -/
def FilledTo (full : Vec F S64x4096 .f32) (k : ℕ) (b : Vec F S64x4096 .f32) : Prop :=
  ∀ y : S64x4096.Idx, (y 1).val < 128 * k → b y = full y

theorem filledTo_zero (full b : Vec F S64x4096 .f32) : FilledTo full 0 b := fun y h => absurd h (by omega)
theorem filledTo_self (full : Vec F S64x4096 .f32) (k : ℕ) : FilledTo full k full := fun _ _ => rfl
theorem filledTo_all {full b : Vec F S64x4096 .f32} {k : ℕ} (hk : 32 ≤ k) (h : FilledTo full k b) : b = full :=
  funext fun y => h y (by have := ValueIdx.idx2_lt1 y; omega)
theorem filledTo_mono {full b : Vec F S64x4096 .f32} {k k' : ℕ} (hk : k' ≤ k) (h : FilledTo full k b) : FilledTo full k' b :=
  fun y hy => h y (by omega)

/-- The column block the body addresses at point t of the first pass starts at column 128 t. -/
theorem blockStart (t : Fin cfg0.N) (ht : t.val < 32) : k0_off2 (grid0.coords t) = ![0, 128 * t.val] := by
  rw [k0_off2_eq, colBlock, Nat.mod_eq_of_lt ht]

/-- One more block: a buffer filled up to block t, then changed in block t only, to that block of the array, is
    filled up to block t + 1. -/
theorem filledTo_step (full : Vec F S64x4096 .f32) (blk : Vec F S64x128 .f32) (t : Fin cfg0.N) (ht : t.val < 32)
    (hblk : ∀ y : S64x4096.Idx, (y 1).val / 128 = t.val → full y = blk (inBlock y))
    (b b' : Vec F S64x4096 .f32) (hprev : FilledTo full t.val b)
    (hin : ∀ (x : S64x128.Idx) (y : S64x4096.Idx), (∀ a, (y a).val = k0_off2 (grid0.coords t) a + (x a).val) → b' y = blk x)
    (hout : ∀ (y : S64x4096.Idx) (a : Fin 2), ((y a).val < k0_off2 (grid0.coords t) a ∨ k0_off2 (grid0.coords t) a + S64x128.size a ≤ (y a).val) → b' y = b y) :
    FilledTo full (t.val + 1) b' := by
  intro y hy
  have hoff := blockStart t ht
  by_cases hlt : (y 1).val < 128 * t.val
  · rw [hout y 1 (Or.inl (by rw [hoff]; exact hlt))]; exact hprev y hlt
  · rw [hin (inBlock y) y (fun a => match a with
      | ⟨0, _⟩ => by rw [hoff]; show (y 0).val = 0 + (y 0).val; omega
      | ⟨1, _⟩ => by rw [hoff]; show (y 1).val = 128 * t.val + (y 1).val % 128; omega)]
    exact (hblk y (by omega)).symm

theorem mid0_block (c : Dev nD) (t : Fin cfg0.N) (ht : t.val < 32) (y : S64x4096.Idx) (hy : (y 1).val / 128 = t.val) :
    mid0 m c y = midBlock0 m c t.val ht (inBlock y) :=
  congrFun (midBlock0_congr m c hy _ _) _
theorem mid1_block (c : Dev nD) (t : Fin cfg0.N) (ht : t.val < 32) (y : S64x4096.Idx) (hy : (y 1).val / 128 = t.val) :
    mid1 m c y = midBlock1 m c t.val ht (inBlock y) :=
  congrFun (midBlock1_congr m c hy _ _) _

/-- The output window's buffer after second-pass point t. -/
def outAt (c : Dev nD) (t : Fin cfg0.N) : Vec F S2x128x64 .f32 := outSlabs (mid0 m c) (mid1 m c) (iblk m c 3 t) (iblk m c 4 t)

/-! ## The invariant -/

/-- Before point n: before the first point the scratch buffers hold anything; afterwards the projections, and
    the intermediates filled up to block n. -/
def carried (c : Dev nD) : ℕ → sProp 𝕄
  | 0 => Pipeline.ΦA spec0 c
  | n + 1 => iprop(iprop(owns (c : Thread nD τ) projBuf0 fullShare (proj0 m c) ∗ owns (c : Thread nD τ) projBuf1 fullShare (proj1 m c)
      ∗ (∃ b, ⌜FilledTo (mid0 m c) (n + 1) b⌝ ∗ owns (c : Thread nD τ) midBuf0 fullShare b)
      ∗ (∃ b, ⌜FilledTo (mid1 m c) (n + 1) b⌝ ∗ owns (c : Thread nD τ) midBuf1 fullShare b)) ∗ (∃ r, prngReg c r))

theorem carried_zero (c : Dev nD) : carried m c 0 = Pipeline.ΦA spec0 c := rfl
theorem carried_pos (c : Dev nD) (n : ℕ) (hn : n ≠ 0) :
    carried m c n = iprop(iprop(owns (c : Thread nD τ) projBuf0 fullShare (proj0 m c) ∗ owns (c : Thread nD τ) projBuf1 fullShare (proj1 m c)
      ∗ (∃ b, ⌜FilledTo (mid0 m c) n b⌝ ∗ owns (c : Thread nD τ) midBuf0 fullShare b)
      ∗ (∃ b, ⌜FilledTo (mid1 m c) n b⌝ ∗ owns (c : Thread nD τ) midBuf1 fullShare b)) ∗ (∃ r, prngReg c r)) := by
  cases n with
  | zero => exact absurd rfl hn
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := carried m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

theorem leaves0 (c : Dev nD) (t : Fin cfg0.N) :
    (dats m 0 c).leavesExact 0 t = owns (c : Thread nD τ) (stg0 t) fullShare (iblk m c 0 t) := by
  unfold Dat.leavesExact; rw [live0 t, after0]
theorem leaves1 (c : Dev nD) (t : Fin cfg0.N) :
    (dats m 0 c).leavesExact 1 t = owns (c : Thread nD τ) (stg1 t) fullShare (iblk m c 1 t) := by
  unfold Dat.leavesExact; rw [live1 t, after1]
theorem leaves2 (c : Dev nD) (t : Fin cfg0.N) :
    (dats m 0 c).leavesExact 2 t = owns (c : Thread nD τ) (stg2 t) fullShare (iblk m c 2 t) := by
  unfold Dat.leavesExact; rw [live2 t, after2]
theorem leaves3 (c : Dev nD) (t : Fin cfg0.N) :
    (dats m 0 c).leavesExact 3 t = owns (c : Thread nD τ) (stg3 t) fullShare (iblk m c 3 t) := by
  unfold Dat.leavesExact; rw [live3 t, after3]
theorem leaves4 (c : Dev nD) (t : Fin cfg0.N) :
    (dats m 0 c).leavesExact 4 t = owns (c : Thread nD τ) (stg4 t) fullShare (iblk m c 4 t) := by
  unfold Dat.leavesExact; rw [live4 t, after4]
theorem leaves5 (c : Dev nD) (t : Fin cfg0.N) :
    (dats m 0 c).leavesExact 5 t = owns (c : Thread nD τ) (stg5 t) fullShare (iblk m c 5 t) := by
  unfold Dat.leavesExact; rw [live5 t, after5]
theorem leaves6 (c : Dev nD) (t : Fin cfg0.N) :
    (dats m 0 c).leavesExact 6 t = owns (c : Thread nD τ) (stg6 t) fullShare (iblk m c 6 t) := by
  unfold Dat.leavesExact; rw [live6 t, after6]
theorem leaves7 (c : Dev nD) (t : Fin cfg0.N) :
    (dats m 0 c).leavesExact 7 t = owns (c : Thread nD τ) (stg7 t) fullShare (iblk m c 7 t) := by
  unfold Dat.leavesExact; rw [live7 t, after7]
theorem leaves8 (c : Dev nD) (t : Fin cfg0.N) :
    (dats m 0 c).leavesExact 8 t = owns (c : Thread nD τ) (stg8 t) fullShare (iblk m c 8 t) := by
  unfold Dat.leavesExact; rw [live8 t, after8]
theorem leaves9_first (c : Dev nD) (t : Fin cfg0.N) (h : t.val < 32) :
    (dats m 0 c).leavesExact 9 t = iprop(∃ d, owns (c : Thread nD τ) (stg9 t) fullShare ((dats m 0 c).before 9 t d)) :=
  (dats m 0 c).leavesExact_idle 9 t (outIdle_first t h) (outFlush_first t h)
theorem leaves9_second (c : Dev nD) (t : Fin cfg0.N) (h : 32 ≤ t.val) :
    (dats m 0 c).leavesExact 9 t = owns (c : Thread nD τ) (stg9 t) fullShare (outAt m c t) := by
  unfold Dat.leavesExact; rw [outLive_second t h, after9]

/-! ## What the body is called with and what it returns -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The body's precondition with the inputs' blocks and the invariant named. -/
def pointPre (c : Dev nD) (t : Fin cfg0.N) : sProp 𝕄 :=
  iprop(carried m c t.val ∗ (dats m 0 c).owesAt () t.castSucc
    ∗ (∃ d : (cfg0.win 0).block.Idx → Elt F (cfg0.win 0).elt, owns (c : Thread nD τ) (stg0 t) fullShare (iblk m c 0 t))
    ∗ (∃ d : (cfg0.win 1).block.Idx → Elt F (cfg0.win 1).elt, owns (c : Thread nD τ) (stg1 t) fullShare (iblk m c 1 t))
    ∗ (∃ d : (cfg0.win 2).block.Idx → Elt F (cfg0.win 2).elt, owns (c : Thread nD τ) (stg2 t) fullShare (iblk m c 2 t))
    ∗ (∃ d : (cfg0.win 3).block.Idx → Elt F (cfg0.win 3).elt, owns (c : Thread nD τ) (stg3 t) fullShare (iblk m c 3 t))
    ∗ (∃ d : (cfg0.win 4).block.Idx → Elt F (cfg0.win 4).elt, owns (c : Thread nD τ) (stg4 t) fullShare (iblk m c 4 t))
    ∗ (∃ d : (cfg0.win 5).block.Idx → Elt F (cfg0.win 5).elt, owns (c : Thread nD τ) (stg5 t) fullShare (iblk m c 5 t))
    ∗ (∃ d : (cfg0.win 6).block.Idx → Elt F (cfg0.win 6).elt, owns (c : Thread nD τ) (stg6 t) fullShare (iblk m c 6 t))
    ∗ (∃ d : (cfg0.win 7).block.Idx → Elt F (cfg0.win 7).elt, owns (c : Thread nD τ) (stg7 t) fullShare (iblk m c 7 t))
    ∗ (∃ d : (cfg0.win 8).block.Idx → Elt F (cfg0.win 8).elt, owns (c : Thread nD τ) (stg8 t) fullShare (iblk m c 8 t))
    ∗ (∃ d, owns (c : Thread nD τ) (stg9 t) fullShare ((dats m 0 c).before 9 t d)))

theorem bodyPre_eq (c : Dev nD) (t : Fin cfg0.N) : bodyPre m c t = pointPre m c t := by
  unfold bodyPre pointPre
  simp only [before0, before1, before2, before3, before4, before5, before6, before7, before8]
  rfl

end Cert.Kernel.Carry

end
-- ==== Proof.K.BodyStart.lean ====
/-
  The body obligation at the first grid point: from scratch buffers holding anything, the run leaves the two
  projections in place and both intermediates filled up to block 1.
-/
import proofs.«116479_g53661321397056_cont_9to1_m_18_15_alg».proof.Proof.K.Invariant

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem body_start (c : Dev nD) : pointPre m c startPt ⊢ wp frame (wpE (defs₀ (F := F)) Variants.none c none) Set.univ (bodyAt0 startPt) (fun _ => bodyPost m c startPt) := by
  have h1 : (startPt : Fin cfg0.N).val < 32 := by show 0 < 32; omega
  have hc0 : AtStart (grid0.coords startPt) := (atStart_iff startPt).mpr rfl
  have hc1 : InFirstPass (grid0.coords startPt) := (inFirstPass_iff startPt).mpr h1
  have hc2 : ¬InSecondPass (grid0.coords startPt) := fun h => absurd ((inSecondPass_iff startPt).mp h) (by show ¬32 ≤ 0; omega)
  unfold pointPre bodyPost bodyAt0
  rw [show (dats m 0 c).owesAt () (startPt : Fin cfg0.N).succ = (dats m 0 c).owesAt () (startPt : Fin cfg0.N).castSucc from rfl]
  rw [show (dats m 0 c).Φ (startPt : Fin cfg0.N).succ = carried m c 1 from rfl]
  rw [leaves0 m c startPt, leaves1 m c startPt, leaves2 m c startPt, leaves3 m c startPt, leaves4 m c startPt, leaves5 m c startPt, leaves6 m c startPt, leaves7 m c startPt, leaves8 m c startPt]
  rw [leaves9_first m c startPt h1]
  rw [show carried m c (startPt : Fin cfg0.N).val = Pipeline.ΦA spec0 c from rfl, scratchAny_eq, carried_pos m c 1 (by omega)]
  iintro ⟨⟨⟨HS0, HS1, ⟨%y0, HS2⟩, ⟨%y1, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runStart c (grid0.coords startPt) _ _ _ _ _ _ _ _ _ _ _ _ _ _ _ _ _ _ _ _ _ _ _ _ _ _ _ _ hc0 hc1 hc2 (iblk m c 0 startPt) (iblk m c 1 startPt) (iblk m c 2 startPt) (iblk m c 3 startPt) (iblk m c 4 startPt) (iblk m c 5 startPt) (iblk m c 6 startPt) (iblk m c 7 startPt) (iblk m c 8 startPt) ((dats m 0 c).before 9 startPt d9) y0 y1).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, ⟨%f0, HS0⟩, ⟨%f1, HS1⟩, HS2, HS3⟩
  isplitl [HS0 HS1 HS2 HS3 Hg]
  · isplitl [HS0 HS1 HS2 HS3]
    · isplitl [HS0]
      · unfold owns; iexists _; isplitr; swap; · iexact HS0
        ipureintro; exact start_proj0 c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1 f0
      isplitl [HS1]
      · unfold owns; iexists _; isplitr; swap; · iexact HS1
        ipureintro; exact start_proj1 c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1 f1
      isplitl [HS2]
      · iexists _; isplitr; swap
        · unfold owns; iexists _; isplitr; swap; · iexact HS2
          ipureintro; rfl
        · ipureintro
          exact filledTo_step (mid0 m c) (midBlock0 m c 0 h1) startPt h1 (mid0_block m c startPt h1) y0 _ (filledTo_zero _ _)
            (start_mid0_in c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1)
            (start_mid0_out c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1)
      · iexists _; isplitr; swap
        · unfold owns; iexists _; isplitr; swap; · iexact HS3
          ipureintro; rfl
        · ipureintro
          exact filledTo_step (mid1 m c) (midBlock1 m c 0 h1) startPt h1 (mid1_block m c startPt h1) y1 _ (filledTo_zero _ _)
            (start_mid1_in c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1)
            (start_mid1_out c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.Kernel.Carry

end
-- ==== Proof.K.BodyFirst.lean ====
/-
  The body obligation at a later point t of the first pass: the projections stay, and each intermediate, filled
  up to block t, comes back filled up to block t + 1.
-/
import proofs.«116479_g53661321397056_cont_9to1_m_18_15_alg».proof.Proof.K.Invariant

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem body_first (c : Dev nD) (t : Fin cfg0.N) (h0 : t.val ≠ 0) (h1 : t.val < 32) : pointPre m c t ⊢ wp frame (wpE (defs₀ (F := F)) Variants.none c none) Set.univ (bodyAt0 t) (fun _ => bodyPost m c t) := by
  have hc0 : ¬AtStart (grid0.coords t) := fun h => h0 ((atStart_iff t).mp h)
  have hc1 : InFirstPass (grid0.coords t) := (inFirstPass_iff t).mpr h1
  have hc2 : ¬InSecondPass (grid0.coords t) := fun h => absurd ((inSecondPass_iff t).mp h) (by omega)
  unfold pointPre bodyPost bodyAt0
  rw [show (dats m 0 c).owesAt () t.succ = (dats m 0 c).owesAt () t.castSucc from rfl]
  rw [show (dats m 0 c).Φ t.succ = carried m c (t.val + 1) from rfl]
  rw [leaves0 m c t, leaves1 m c t, leaves2 m c t, leaves3 m c t, leaves4 m c t, leaves5 m c t, leaves6 m c t, leaves7 m c t, leaves8 m c t]
  rw [leaves9_first m c t h1]
  rw [carried_pos m c t.val h0, carried_pos m c (t.val + 1) (by omega)]
  iintro ⟨⟨⟨HS0, HS1, ⟨%y0, %hy0, HS2⟩, ⟨%y1, %hy1, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runFirst c (grid0.coords t) _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) ((dats m 0 c).before 9 t d9) (proj0 m c) (proj1 m c) y0 y1).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr; swap
        · unfold owns; iexists _; isplitr; swap; · iexact HS2
          ipureintro; rfl
        · ipureintro
          exact filledTo_step (mid0 m c) (midBlock0 m c t.val h1) t h1 (mid0_block m c t h1) y0 _ hy0
            (first_mid0_in c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 _ (proj0 m c) (proj1 m c) y0 y1)
            (first_mid0_out c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 _ (proj0 m c) (proj1 m c) y0 y1)
      · iexists _; isplitr; swap
        · unfold owns; iexists _; isplitr; swap; · iexact HS3
          ipureintro; rfl
        · ipureintro
          exact filledTo_step (mid1 m c) (midBlock1 m c t.val h1) t h1 (mid1_block m c t h1) y1 _ hy1
            (first_mid1_in c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 _ (proj0 m c) (proj1 m c) y0 y1)
            (first_mid1_out c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 _ (proj0 m c) (proj1 m c) y0 y1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.Kernel.Carry

end
-- ==== Proof.K.BodySecond.lean ====
/-
  The body obligation at a point t of the second pass: both intermediates are complete, the scratch buffers are
  only read, and the output window's buffer comes back holding the point's two slabs.
-/
import proofs.«116479_g53661321397056_cont_9to1_m_18_15_alg».proof.Proof.K.Invariant

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem body_second (c : Dev nD) (t : Fin cfg0.N) (h2 : 32 ≤ t.val) : pointPre m c t ⊢ wp frame (wpE (defs₀ (F := F)) Variants.none c none) Set.univ (bodyAt0 t) (fun _ => bodyPost m c t) := by
  have hc0 : ¬AtStart (grid0.coords t) := fun h => absurd ((atStart_iff t).mp h) (by omega)
  have hc1 : ¬InFirstPass (grid0.coords t) := fun h => absurd ((inFirstPass_iff t).mp h) (by omega)
  have hc2 : InSecondPass (grid0.coords t) := (inSecondPass_iff t).mpr h2
  unfold pointPre bodyPost bodyAt0
  rw [show (dats m 0 c).owesAt () t.succ = (dats m 0 c).owesAt () t.castSucc from rfl]
  rw [show (dats m 0 c).Φ t.succ = carried m c (t.val + 1) from rfl]
  rw [leaves0 m c t, leaves1 m c t, leaves2 m c t, leaves3 m c t, leaves4 m c t, leaves5 m c t, leaves6 m c t, leaves7 m c t, leaves8 m c t]
  rw [leaves9_second m c t h2]
  rw [carried_pos m c t.val (by omega), carried_pos m c (t.val + 1) (by omega)]
  iintro ⟨⟨⟨HS0, HS1, ⟨%y0, %hy0, HS2⟩, ⟨%y1, %hy1, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl := filledTo_all h2 hy0
  obtain rfl := filledTo_all h2 hy1
  iapply ((runSecond c (grid0.coords t) _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) (proj0 m c) (proj1 m c) (mid0 m c) (mid1 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, ⟨%f9, H9⟩, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr; · ipureintro; exact filledTo_self _ _
        iexact HS2
      iexists _; isplitr; · ipureintro; exact filledTo_self _ _
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr; swap; · iexact H9
  ipureintro; exact second_out c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 (proj0 m c) (proj1 m c) (mid0 m c) (mid1 m c) f9

end Cert.Kernel.Carry

end
-- ==== Proof.K.FrameRun.lean ====
/-
  The frame run. At every grid point the body meets its obligation (one of the three cases); the launch hands the
  region scratch buffers holding anything, which is the invariant before the first point, and after the last point
  the invariant's named contents are forgotten again. So every weakly fair execution terminates without a fault,
  leaves every argument array as it was, and leaves the result array at what the write-backs of the second pass
  make of it.
-/
import proofs.«116479_g53661321397056_cont_9to1_m_18_15_alg».proof.Proof.K.BodyStart
import proofs.«116479_g53661321397056_cont_9to1_m_18_15_alg».proof.Proof.K.BodyFirst
import proofs.«116479_g53661321397056_cont_9to1_m_18_15_alg».proof.Proof.K.BodySecond

set_option maxRecDepth 16384

noncomputable section

namespace Cert.Kernel.Carry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  rw [bodyPre_eq]
  by_cases h1 : t.val < 32
  · by_cases h0 : t.val = 0
    · obtain rfl : t = startPt := Fin.ext h0
      exact body_start m c
    · exact body_first m c t h0 h1
  · exact body_second m c t (by omega)

theorem body_obligation (c : Dev nD) : BodyObligation (dats (F := F) m 0 c) (defs₀ (F := F)) Variants.none () Set.univ := fun t => by
  rw [bigSep_W0, bigSep_W0]
  exact sound_body m c t

theorem entry (c : Dev nD) : Pipeline.ΦA spec0 c ⊢ (dats m 0 c).Φ 0 := by
  rw [show (dats m 0 c).Φ 0 = carried m c 0 from rfl, carried_zero]
  try exact Idealize.SL.BI.Entails.refl _

theorem exit (c : Dev nD) : (dats m 0 c).Φ (Fin.last cfg0.N) ⊢ Pipeline.ΦA spec0 c := by
  rw [show (dats m 0 c).Φ (Fin.last cfg0.N) = carried m c 64 from rfl, carried_pos m c 64 (by omega), scratchAny_eq]
  iintro ⟨⟨HS0, HS1, ⟨%y0, -, HS2⟩, ⟨%y1, -, HS3⟩⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- Every weakly fair execution terminates; every window's array ends at what the proof data's write-backs make
    of it (an input: as it was), every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := entry m) (hout := exit m)

/-- The frame: the run, read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Carry

end
-- ==== Proof.KI.Sched.lean ====
/-
  The grid of the kernel is 2 x 32, walked row-major as 64 points: the first 32 points are the first pass
  (pass index 0, column block t), the last 32 the second pass (pass index 1, column block t - 32). This module
  decides, over that grid, where each of the body's three conditionals is taken, which column block a point
  addresses, and where the output window is idle and where it is written back; and names the staging and scratch
  buffers the body is handed.
-/
import proofs.«116479_g53661321397056_cont_9to1_m_18_15_alg».proof.Proof.Gen.KernelIdeal.Frame
import proofs.«116479_g53661321397056_cont_9to1_m_18_15_alg».proof.Proof.Gen.KernelIdeal.Skeleton

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the body's conditionals are taken -/

/-- Both grid coordinates are zero: the point that computes the two projected inputs. -/
abbrev AtStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem atStart_iff : ∀ t : Fin cfg0.N, AtStart (grid0.coords t) ↔ t.val = 0 :=
  (by decide +kernel : ∀ t : Fin grid0.N, AtStart (grid0.coords t) ↔ t.val = 0)

/-- The pass index is 0: a point of the first pass. -/
abbrev InFirstPass (i : grid0.Coords) : Prop := k0_cond2 i = 1#1
theorem inFirstPass_iff : ∀ t : Fin cfg0.N, InFirstPass (grid0.coords t) ↔ t.val < 32 :=
  (by decide +kernel : ∀ t : Fin grid0.N, InFirstPass (grid0.coords t) ↔ t.val < 32)

/-- The pass index is 1: a point of the second pass. -/
abbrev InSecondPass (i : grid0.Coords) : Prop := k0_cond3 i = 1#1
theorem inSecondPass_iff : ∀ t : Fin cfg0.N, InSecondPass (grid0.coords t) ↔ 32 ≤ t.val :=
  (by decide +kernel : ∀ t : Fin grid0.N, InSecondPass (grid0.coords t) ↔ 32 ≤ t.val)

/-- The column block a point addresses is its position within its pass. -/
theorem colBlock : ∀ t : Fin cfg0.N, ((grid0.coords t) 1).val = t.val % 32 :=
  (by decide +kernel : ∀ t : Fin grid0.N, ((grid0.coords t) 1).val = t.val % 32)

theorem N_eq : cfg0.N = 64 := N_0

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
/-- The output window is idle exactly in the first pass, -/
theorem outIdle_first : ∀ t : Fin cfg0.N, t.val < 32 → cfg0.idle 9 (grid0.coords t) = true :=
  (by decide +kernel : ∀ t : Fin grid0.N, t.val < 32 → cfg0.idle 9 (grid0.coords t) = true)
theorem outLive_second : ∀ t : Fin cfg0.N, 32 ≤ t.val → cfg0.idle 9 (grid0.coords t) = false :=
  (by decide +kernel : ∀ t : Fin grid0.N, 32 ≤ t.val → cfg0.idle 9 (grid0.coords t) = false)
/-- and written back after every point of the second pass and after none of the first. -/
theorem outFlush_iff : ∀ t : Fin cfg0.N, (cfg0.win 9).flush t = true ↔ 32 ≤ t.val :=
  (by decide +kernel : ∀ t : Fin grid0.N, win0_9.flush t = true ↔ 32 ≤ t.val)
theorem outFlush_first (t : Fin cfg0.N) (h : t.val < 32) : (cfg0.win 9).flush t = false := by
  cases hf : (cfg0.win 9).flush t
  · rfl
  · have := (outFlush_iff t).mp hf; omega

/-! ## The buffers the body is handed -/

abbrev stg0 (t : Fin cfg0.N) : Memref sig .tc .vmem S4096x64 .f32 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S128x4096 .f32 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S128x4096 .f32 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S128x4096 .f32 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S128x4096 .f32 := win0_4.stage (cfg0.slots t 4)
abbrev stgWhole4 (t : Fin cfg0.N) : (stg4 t).IsWhole := hstage0_4 ((cfg0.slots t 4).cast nbuf0_4)
abbrev stg5 (t : Fin cfg0.N) : Memref sig .tc .vmem S64x64 .f32 := win0_5.stage (cfg0.slots t 5)
abbrev stgWhole5 (t : Fin cfg0.N) : (stg5 t).IsWhole := hstage0_5 ((cfg0.slots t 5).cast nbuf0_5)
abbrev stg6 (t : Fin cfg0.N) : Memref sig .tc .vmem S64x64 .f32 := win0_6.stage (cfg0.slots t 6)
abbrev stgWhole6 (t : Fin cfg0.N) : (stg6 t).IsWhole := hstage0_6 ((cfg0.slots t 6).cast nbuf0_6)
abbrev stg7 (t : Fin cfg0.N) : Memref sig .tc .vmem S1x4096 .f32 := win0_7.stage (cfg0.slots t 7)
abbrev stgWhole7 (t : Fin cfg0.N) : (stg7 t).IsWhole := hstage0_7 ((cfg0.slots t 7).cast nbuf0_7)
abbrev stg8 (t : Fin cfg0.N) : Memref sig .tc .vmem S1x4096 .f32 := win0_8.stage (cfg0.slots t 8)
abbrev stgWhole8 (t : Fin cfg0.N) : (stg8 t).IsWhole := hstage0_8 ((cfg0.slots t 8).cast nbuf0_8)
abbrev stg9 (t : Fin cfg0.N) : Memref sig .tc .vmem S2x128x64 .f32 := win0_9.stage (cfg0.slots t 9)
abbrev stgWhole9 (t : Fin cfg0.N) : (stg9 t).IsWhole := hstage0_9 ((cfg0.slots t 9).cast nbuf0_9)
/-- The four scratch buffers: the two projected inputs (rows = output features, columns = nodes) and the two
    transformed, scaled intermediates of the same layout. -/
abbrev projBuf0 : Memref sig .tc .vmem S64x4096 .f32 := Memref.whole cc0_scratch0
abbrev projBuf1 : Memref sig .tc .vmem S64x4096 .f32 := Memref.whole cc0_scratch1
abbrev midBuf0 : Memref sig .tc .vmem S64x4096 .f32 := Memref.whole cc0_scratch2
abbrev midBuf1 : Memref sig .tc .vmem S64x4096 .f32 := Memref.whole cc0_scratch3

/-- What the launch hands the region: the four scratch buffers at some contents and the generator register. -/
theorem scratchAny_eq (c : Dev nD) :
    (Pipeline.ΦA spec0 c : sProp 𝕄)
      = iprop(iprop((∃ d, owns (c : Thread nD τ) projBuf0 fullShare d) ∗ (∃ d, owns (c : Thread nD τ) projBuf1 fullShare d) ∗ (∃ d, owns (c : Thread nD τ) midBuf0 fullShare d) ∗ (∃ d, owns (c : Thread nD τ) midBuf1 fullShare d)) ∗ (∃ r, prngReg c r)) := by
  unfold Pipeline.ΦA; rw [scopedRest0_eq]; simp only [projBuf0, projBuf1, midBuf0, midBuf1, owns_whole]; try rfl

end Cert.KernelIdeal.Carry

end
-- ==== Proof.KI.RunStart.lean ====
/-
  The body at the first grid point. All three of its stages that belong to the first pass run: it computes the two
  projected inputs (each weight matrix transposed times the input transposed) and stores each over the whole of
  its scratch buffer, then computes column block 0 of the two scaled intermediates from them and stores it into
  columns 0..127 of the other two scratch buffers. The output buffer is not touched.
-/
import proofs.«116479_g53661321397056_cont_9to1_m_18_15_alg».proof.Proof.KI.Sched

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at the first point, on whole buffers: the inputs at their contents, the output buffer at `x9`, the two
    projection buffers at anything, the two intermediate buffers at `y0`, `y1`. It ends with the inputs and the output
    buffer as they were and each scratch buffer with the stores made into it (found by the run, last store first). -/
noncomputable def runStart (c : Dev nD) (i : grid0.Coords) (arg2 : Memref sig .tc .vmem S4096x64 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x128x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole) (hc0 : AtStart i) (hc1 : InFirstPass i) (hc2 : ¬InSecondPass i)
    (x0 : Vec F S4096x64 .f32) (x1 : Vec F S128x4096 .f32) (x2 : Vec F S128x4096 .f32) (x3 : Vec F S128x4096 .f32) (x4 : Vec F S128x4096 .f32) (x5 : Vec F S64x64 .f32) (x6 : Vec F S64x64 .f32) (x7 : Vec F S1x4096 .f32) (x8 : Vec F S1x4096 .f32) (x9 : Vec F S2x128x64 .f32) (y0 y1 : Vec F S64x4096 .f32) :
    Σ' (LS0 LS1 LS2 : List (View.Piece (Elt F) S64x4096 .f32)), { LS3 : List (View.Piece (Elt F) S64x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y0 ∗ owns (c : Thread nD τ) arg15 fullShare y1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (arg14.view.loc (c : Thread nD τ) ↦[arg14.view.set]{fullShare} arg14.view.writes (Elt F) (harg14.unread y0) LS2) ∗ (arg15.view.loc (c : Thread nD τ) ↦[arg15.view.set]{fullShare} arg15.view.writes (Elt F) (harg15.unread y1) LS3)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs2; obtain rfl := harg15.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    isplitl [HS2]; · iexact HS2
    iexact HS3

end Cert.KernelIdeal.Carry

end
-- ==== Proof.KI.RunFirst.lean ====
/-
  The body at a later point of the first pass. Only the middle stage runs: from the two projected inputs (read whole
  from their scratch buffers, which it leaves alone) and the point's 128-row blocks of the two inverse bases it
  computes the point's column block of the two scaled intermediates and stores it into that column block of the
  other two scratch buffers. The output buffer is not touched.
-/
import proofs.«116479_g53661321397056_cont_9to1_m_18_15_alg».proof.Proof.KI.RunStart

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a later point of the first pass, on whole buffers: the inputs at their contents, the output buffer at
    `x9`, the projection buffers at `p0`, `p1`, the intermediate buffers at `y0`, `y1`. It ends with everything as it was
    except the intermediate buffers, each with the one store made into it. -/
noncomputable def runFirst (c : Dev nD) (i : grid0.Coords) (arg2 : Memref sig .tc .vmem S4096x64 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x128x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole) (hc0 : ¬AtStart i) (hc1 : InFirstPass i) (hc2 : ¬InSecondPass i)
    (x0 : Vec F S4096x64 .f32) (x1 : Vec F S128x4096 .f32) (x2 : Vec F S128x4096 .f32) (x3 : Vec F S128x4096 .f32) (x4 : Vec F S128x4096 .f32) (x5 : Vec F S64x64 .f32) (x6 : Vec F S64x64 .f32) (x7 : Vec F S1x4096 .f32) (x8 : Vec F S1x4096 .f32) (x9 : Vec F S2x128x64 .f32) (p0 p1 y0 y1 : Vec F S64x4096 .f32) :
    Σ' (LS2 : List (View.Piece (Elt F) S64x4096 .f32)), { LS3 : List (View.Piece (Elt F) S64x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare p0 ∗ owns (c : Thread nD τ) arg13 fullShare p1 ∗ owns (c : Thread nD τ) arg14 fullShare y0 ∗ owns (c : Thread nD τ) arg15 fullShare y1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare p0 ∗ owns (c : Thread nD τ) arg13 fullShare p1 ∗ (arg14.view.loc (c : Thread nD τ) ↦[arg14.view.set]{fullShare} arg14.view.writes (Elt F) (harg14.unread y0) LS2) ∗ (arg15.view.loc (c : Thread nD τ) ↦[arg15.view.set]{fullShare} arg15.view.writes (Elt F) (harg15.unread y1) LS3)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]
    · iexists _; isplitr; · ipureintro; exact harg13.read_unread _
      iexact HS1
    isplitl [HS2]; · iexact HS2
    iexact HS3

end Cert.KernelIdeal.Carry

end
-- ==== Proof.KI.RunSecond.lean ====
/-
  The body at a point of the second pass. Only the last stage runs: from the two scaled intermediates (read whole
  from their scratch buffers, which it leaves alone) and the point's 128-row blocks of the two bases it computes,
  for each scale, the point's 128 output rows (clamped below at zero, transposed to rows = nodes) and stores the
  two results as the two slabs of the output buffer, which together fill it.
-/
import proofs.«116479_g53661321397056_cont_9to1_m_18_15_alg».proof.Proof.KI.RunFirst

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a point of the second pass, on whole buffers: the inputs at their contents, the output buffer at
    anything, the four scratch buffers at `p0`, `p1`, `y0`, `y1`. It ends with everything as it was except the output
    buffer, which holds the two stores made into it. -/
noncomputable def runSecond (c : Dev nD) (i : grid0.Coords) (arg2 : Memref sig .tc .vmem S4096x64 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x128x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole) (hc0 : ¬AtStart i) (hc1 : ¬InFirstPass i) (hc2 : InSecondPass i)
    (x0 : Vec F S4096x64 .f32) (x1 : Vec F S128x4096 .f32) (x2 : Vec F S128x4096 .f32) (x3 : Vec F S128x4096 .f32) (x4 : Vec F S128x4096 .f32) (x5 : Vec F S64x64 .f32) (x6 : Vec F S64x64 .f32) (x7 : Vec F S1x4096 .f32) (x8 : Vec F S1x4096 .f32) (p0 p1 y0 y1 : Vec F S64x4096 .f32) :
    { LO : List (View.Piece (Elt F) S2x128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare p0 ∗ owns (c : Thread nD τ) arg13 fullShare p1 ∗ owns (c : Thread nD τ) arg14 fullShare y0 ∗ owns (c : Thread nD τ) arg15 fullShare y1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f LO) ∗ owns (c : Thread nD τ) arg12 fullShare p0 ∗ owns (c : Thread nD τ) arg13 fullShare p1 ∗ owns (c : Thread nD τ) arg14 fullShare y0 ∗ owns (c : Thread nD τ) arg15 fullShare y1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2; obtain rfl := harg15.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3

end Cert.KernelIdeal.Carry

end
-- ==== Proof.KI.Contents.lean ====
/-
  What the three runs leave in the buffers they store into, in closed form.
  * At the first point each projection buffer, stored whole, holds the projected input of its weight.
  * At every point of the first pass each intermediate buffer is changed only in the point's column block, which
    then holds the block of the scaled intermediate computed from the projection, the point's inverse-basis block
    and the point's 128 scale factors; every other column keeps what it held.
  * At a point of the second pass the output buffer, stored as two slabs that fill it, holds for each scale the slab
    computed from that scale's intermediate and the point's basis block.
-/
import proofs.«116479_g53661321397056_cont_9to1_m_18_15_alg».proof.Proof.KI.RunSecond
import Idealize.ShloMosaic.Lib.WritesUnit
import Idealize.ShloMosaic.Lib.Pipeline.Value
import Idealize.ShloMosaic.Lib.Ring

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → ℕ) = fun _ => 0 := funext fun a => by fin_cases a <;> rfl

/-- The 128 scale factors of the column block a first-pass point addresses, out of all 4096. -/
def scaleBlock (i : grid0.Coords) (h : InFirstPass i) (k : Vec F S1x4096 .f32) : Vec F S1x128 .f32 :=
  View.ld k (Rect.unit (s := S1x4096) (k0_off1 i) S1x128.size (k0_off1_inb i h))

/-- The output buffer after a second-pass point: slab 0 from the first intermediate and basis block, slab 1 from
    the second. -/
def outSlabs (y0 y1 : Vec F S64x4096 .f32) (b0 b1 : Vec F S128x4096 .f32) : Vec F S2x128x64 .f32 :=
  View.canon [⟨Rect.unit (s := S2x128x64) ![1, 0, 0] S1x128x64.size inb_S2x128x64_S1x128x64_1_0_0, k0_pay6 y1 b1⟩,
    ⟨Rect.unit (s := S2x128x64) ![0, 0, 0] S1x128x64.size inb_S2x128x64_S1x128x64_0_0_0, k0_pay5 y0 b0⟩]

section
variable (c : Dev nD) (i : grid0.Coords) (arg2 : Memref sig .tc .vmem S4096x64 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S2x128x64 .f32) (harg11 : arg11.IsWhole) (arg12 : Memref sig .tc .vmem S64x4096 .f32) (harg12 : arg12.IsWhole) (arg13 : Memref sig .tc .vmem S64x4096 .f32) (harg13 : arg13.IsWhole) (arg14 : Memref sig .tc .vmem S64x4096 .f32) (harg14 : arg14.IsWhole) (arg15 : Memref sig .tc .vmem S64x4096 .f32) (harg15 : arg15.IsWhole) (x0 : Vec F S4096x64 .f32) (x1 : Vec F S128x4096 .f32) (x2 : Vec F S128x4096 .f32) (x3 : Vec F S128x4096 .f32) (x4 : Vec F S128x4096 .f32) (x5 : Vec F S64x64 .f32) (x6 : Vec F S64x64 .f32) (x7 : Vec F S1x4096 .f32) (x8 : Vec F S1x4096 .f32)

/-! ## The first point -/

section Start
variable (hc0 : AtStart i) (hc1 : InFirstPass i) (hc2 : ¬InSecondPass i) (x9 : Vec F S2x128x64 .f32) (y0 y1 : Vec F S64x4096 .f32)

theorem start_proj0 (f : arg12.view.ty.Contents (Elt F)) :
    arg12.view.read (Elt F) (arg12.view.writes (Elt F) f (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).1) = k0_pay1 x5 x0 := by
  unfold runStart; dsimp only; unfold runStart.sl.HS0_1
  rw [View.read_writes_eq_canon _ _ _ (fun y => ⟨_, List.mem_singleton_self _, View.mem_set_unit_zero zero2 inb_S64x4096_S64x4096_0_0 y⟩),
    View.canon_unit_zero zero2]
  simp only [View.readAt_eq_ld, Memref.IsWhole.read_unread, View.ld_unit_zero (S := S64x64) zero2, View.ld_unit_zero (S := S4096x64) zero2, View.ld_unit_zero (S := S128x4096) zero2, View.ld_unit_zero (S := S64x4096) zero2]

theorem start_proj1 (f : arg13.view.ty.Contents (Elt F)) :
    arg13.view.read (Elt F) (arg13.view.writes (Elt F) f (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.1) = k0_pay2 x6 x0 := by
  unfold runStart; dsimp only; unfold runStart.sl.HS1_1
  rw [View.read_writes_eq_canon _ _ _ (fun y => ⟨_, List.mem_singleton_self _, View.mem_set_unit_zero zero2 inb_S64x4096_S64x4096_0_0 y⟩),
    View.canon_unit_zero zero2]
  simp only [View.readAt_eq_ld, Memref.IsWhole.read_unread, View.ld_unit_zero (S := S64x64) zero2, View.ld_unit_zero (S := S4096x64) zero2, View.ld_unit_zero (S := S128x4096) zero2, View.ld_unit_zero (S := S64x4096) zero2]

theorem start_mid0_in (x : S64x128.Idx) (y : S64x4096.Idx) (hx : ∀ a, (y a).val = k0_off2 i a + (x a).val) :
    arg14.view.read (Elt F) (arg14.view.writes (Elt F) (harg14.unread y0) (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.2.1) y
      = k0_pay3 (k0_pay1 x5 x0) x1 (scaleBlock i hc1 x7) x := by
  unfold runStart; dsimp only; unfold runStart.sl.v11 runStart.sl.HS0_1
  refine (View.read_writes_cons_unit_of_mem _ _ _ _ _ y x rfl hx).trans ?_
  rw [View.readCov_unit_zero _ zero2]
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

theorem start_mid0_out (y : S64x4096.Idx) (a : Fin 2) (ha : (y a).val < k0_off2 i a ∨ k0_off2 i a + S64x128.size a ≤ (y a).val) :
    arg14.view.read (Elt F) (arg14.view.writes (Elt F) (harg14.unread y0) (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.2.1) y = y0 y := by
  unfold runStart; dsimp only
  refine (View.read_writes_cons_unit_of_not_mem _ _ _ _ _ y rfl a ha).trans ?_
  rw [View.writes_nil, Memref.IsWhole.read_unread]

theorem start_mid1_in (x : S64x128.Idx) (y : S64x4096.Idx) (hx : ∀ a, (y a).val = k0_off2 i a + (x a).val) :
    arg15.view.read (Elt F) (arg15.view.writes (Elt F) (harg15.unread y1) (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.2.2.1) y
      = k0_pay4 (k0_pay2 x6 x0) x2 (scaleBlock i hc1 x8) x := by
  unfold runStart; dsimp only; unfold runStart.sl.v25 runStart.sl.HS1_1
  refine (View.read_writes_cons_unit_of_mem _ _ _ _ _ y x rfl hx).trans ?_
  rw [View.readCov_unit_zero _ zero2]
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

theorem start_mid1_out (y : S64x4096.Idx) (a : Fin 2) (ha : (y a).val < k0_off2 i a ∨ k0_off2 i a + S64x128.size a ≤ (y a).val) :
    arg15.view.read (Elt F) (arg15.view.writes (Elt F) (harg15.unread y1) (runStart c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 y0 y1).2.2.2.1) y = y1 y := by
  unfold runStart; dsimp only
  refine (View.read_writes_cons_unit_of_not_mem _ _ _ _ _ y rfl a ha).trans ?_
  rw [View.writes_nil, Memref.IsWhole.read_unread]

end Start

/-! ## A later point of the first pass -/

section First
variable (hc0 : ¬AtStart i) (hc1 : InFirstPass i) (hc2 : ¬InSecondPass i) (x9 : Vec F S2x128x64 .f32) (p0 p1 y0 y1 : Vec F S64x4096 .f32)

theorem first_mid0_in (x : S64x128.Idx) (y : S64x4096.Idx) (hx : ∀ a, (y a).val = k0_off2 i a + (x a).val) :
    arg14.view.read (Elt F) (arg14.view.writes (Elt F) (harg14.unread y0) (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 p0 p1 y0 y1).1) y
      = k0_pay3 p0 x1 (scaleBlock i hc1 x7) x := by
  unfold runFirst; dsimp only
  refine (View.read_writes_cons_unit_of_mem _ _ _ _ _ y x rfl hx).trans ?_
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

theorem first_mid0_out (y : S64x4096.Idx) (a : Fin 2) (ha : (y a).val < k0_off2 i a ∨ k0_off2 i a + S64x128.size a ≤ (y a).val) :
    arg14.view.read (Elt F) (arg14.view.writes (Elt F) (harg14.unread y0) (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 p0 p1 y0 y1).1) y = y0 y := by
  unfold runFirst; dsimp only
  refine (View.read_writes_cons_unit_of_not_mem _ _ _ _ _ y rfl a ha).trans ?_
  rw [View.writes_nil, Memref.IsWhole.read_unread]

theorem first_mid1_in (x : S64x128.Idx) (y : S64x4096.Idx) (hx : ∀ a, (y a).val = k0_off2 i a + (x a).val) :
    arg15.view.read (Elt F) (arg15.view.writes (Elt F) (harg15.unread y1) (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 p0 p1 y0 y1).2.1) y
      = k0_pay4 p1 x2 (scaleBlock i hc1 x8) x := by
  unfold runFirst; dsimp only
  refine (View.read_writes_cons_unit_of_mem _ _ _ _ _ y x rfl hx).trans ?_
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

theorem first_mid1_out (y : S64x4096.Idx) (a : Fin 2) (ha : (y a).val < k0_off2 i a ∨ k0_off2 i a + S64x128.size a ≤ (y a).val) :
    arg15.view.read (Elt F) (arg15.view.writes (Elt F) (harg15.unread y1) (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 p0 p1 y0 y1).2.1) y = y1 y := by
  unfold runFirst; dsimp only
  refine (View.read_writes_cons_unit_of_not_mem _ _ _ _ _ y rfl a ha).trans ?_
  rw [View.writes_nil, Memref.IsWhole.read_unread]

end First

/-! ## A point of the second pass -/

section Second
variable (hc0 : ¬AtStart i) (hc1 : ¬InFirstPass i) (hc2 : InSecondPass i) (p0 p1 y0 y1 : Vec F S64x4096 .f32)

theorem second_out (f : arg11.view.ty.Contents (Elt F)) :
    arg11.view.read (Elt F) (arg11.view.writes (Elt F) f (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 p0 p1 y0 y1).1) = outSlabs y0 y1 x3 x4 := by
  unfold runSecond; dsimp only
  refine (View.read_writes_eq_canon (Val := Elt F) arg11.view f _ (View.cover_of_tiledL _ S1x128x64.size (by sl_kernel_rfl))).trans ?_
  simp only [View.readAt_eq_ld, Memref.IsWhole.read_unread, View.ld_unit_zero (S := S64x64) zero2, View.ld_unit_zero (S := S4096x64) zero2, View.ld_unit_zero (S := S128x4096) zero2, View.ld_unit_zero (S := S64x4096) zero2]
  rfl

end Second
end

end Cert.KernelIdeal.Carry

end
-- ==== Proof.KI.Invariant.lean ====
/-
  What the four scratch buffers hold between grid points, and the pipeline's proof data.
  After the first point each projection buffer holds, for good, the projected input of its weight. After point n of
  the first pass each intermediate buffer agrees with the scaled intermediate (the whole [64, 4096] array whose
  column block t is what point t computes) on columns 0 .. 128 (n + 1) - 1 and holds anything to the right; from
  the end of the first pass on it is that array. The output window's buffer after a second-pass point holds the two
  slabs computed from the two intermediates and the point's basis blocks.
-/
import proofs.«116479_g53661321397056_cont_9to1_m_18_15_alg».proof.Proof.KI.Contents
import Idealize.ShloMosaic.Lib.ValueIdx

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The named contents -/

/-- Point number n of the first pass, as a grid point. -/
def firstPt (n : ℕ) (hn : n < 32) : Fin cfg0.N := ⟨n, by rw [N_eq]; omega⟩

/-- The first grid point. -/
abbrev startPt : Fin cfg0.N := firstPt 0 (by omega)

/-- The two projected inputs, from the weights and the input as the region finds them. -/
def proj0 (c : Dev nD) : Vec F S64x4096 .f32 := k0_pay1 (iblk m c 5 startPt) (iblk m c 0 startPt)
def proj1 (c : Dev nD) : Vec F S64x4096 .f32 := k0_pay2 (iblk m c 6 startPt) (iblk m c 0 startPt)

/-- Column block n of each scaled intermediate: from the projection, the inverse basis' row block n and the scale
    factors of block n. -/
def midBlock0 (c : Dev nD) (n : ℕ) (hn : n < 32) : Vec F S64x128 .f32 :=
  k0_pay3 (proj0 m c) (iblk m c 1 (firstPt n hn)) (scaleBlock (grid0.coords (firstPt n hn)) ((inFirstPass_iff _).mpr hn) (iblk m c 7 (firstPt n hn)))
def midBlock1 (c : Dev nD) (n : ℕ) (hn : n < 32) : Vec F S64x128 .f32 :=
  k0_pay4 (proj1 m c) (iblk m c 2 (firstPt n hn)) (scaleBlock (grid0.coords (firstPt n hn)) ((inFirstPass_iff _).mpr hn) (iblk m c 8 (firstPt n hn)))

theorem midBlock0_congr (c : Dev nD) {n n' : ℕ} (e : n = n') (hn : n < 32) (hn' : n' < 32) : midBlock0 m c n hn = midBlock0 m c n' hn' := by
  subst e; rfl
theorem midBlock1_congr (c : Dev nD) {n n' : ℕ} (e : n = n') (hn : n < 32) (hn' : n' < 32) : midBlock1 m c n hn = midBlock1 m c n' hn' := by
  subst e; rfl

/-- The position of column y within its block of 128. -/
def inBlock (y : S64x4096.Idx) : S64x128.Idx :=
  ValueIdx.ix2 (n0 := 64) (n1 := 128) (y 0) ⟨(y 1).val % 128, Nat.mod_lt _ (by norm_num)⟩

theorem blockOf_lt (y : S64x4096.Idx) : (y 1).val / 128 < 32 := by
  have h := ValueIdx.idx2_lt1 y; omega

/-- The two scaled intermediates, whole: column y lies in block y / 128 at position y % 128. -/
def mid0 (c : Dev nD) : Vec F S64x4096 .f32 := fun y => midBlock0 m c ((y 1).val / 128) (blockOf_lt y) (inBlock y)
def mid1 (c : Dev nD) : Vec F S64x4096 .f32 := fun y => midBlock1 m c ((y 1).val / 128) (blockOf_lt y) (inBlock y)

/-- The buffer `b` agrees with the array `full` on the first k column blocks. -/
def FilledTo (full : Vec F S64x4096 .f32) (k : ℕ) (b : Vec F S64x4096 .f32) : Prop :=
  ∀ y : S64x4096.Idx, (y 1).val < 128 * k → b y = full y

theorem filledTo_zero (full b : Vec F S64x4096 .f32) : FilledTo full 0 b := fun y h => absurd h (by omega)
theorem filledTo_self (full : Vec F S64x4096 .f32) (k : ℕ) : FilledTo full k full := fun _ _ => rfl
theorem filledTo_all {full b : Vec F S64x4096 .f32} {k : ℕ} (hk : 32 ≤ k) (h : FilledTo full k b) : b = full :=
  funext fun y => h y (by have := ValueIdx.idx2_lt1 y; omega)
theorem filledTo_mono {full b : Vec F S64x4096 .f32} {k k' : ℕ} (hk : k' ≤ k) (h : FilledTo full k b) : FilledTo full k' b :=
  fun y hy => h y (by omega)

/-- The column block the body addresses at point t of the first pass starts at column 128 t. -/
theorem blockStart (t : Fin cfg0.N) (ht : t.val < 32) : k0_off2 (grid0.coords t) = ![0, 128 * t.val] := by
  rw [k0_off2_eq, colBlock, Nat.mod_eq_of_lt ht]

/-- One more block: a buffer filled up to block t, then changed in block t only, to that block of the array, is
    filled up to block t + 1. -/
theorem filledTo_step (full : Vec F S64x4096 .f32) (blk : Vec F S64x128 .f32) (t : Fin cfg0.N) (ht : t.val < 32)
    (hblk : ∀ y : S64x4096.Idx, (y 1).val / 128 = t.val → full y = blk (inBlock y))
    (b b' : Vec F S64x4096 .f32) (hprev : FilledTo full t.val b)
    (hin : ∀ (x : S64x128.Idx) (y : S64x4096.Idx), (∀ a, (y a).val = k0_off2 (grid0.coords t) a + (x a).val) → b' y = blk x)
    (hout : ∀ (y : S64x4096.Idx) (a : Fin 2), ((y a).val < k0_off2 (grid0.coords t) a ∨ k0_off2 (grid0.coords t) a + S64x128.size a ≤ (y a).val) → b' y = b y) :
    FilledTo full (t.val + 1) b' := by
  intro y hy
  have hoff := blockStart t ht
  by_cases hlt : (y 1).val < 128 * t.val
  · rw [hout y 1 (Or.inl (by rw [hoff]; exact hlt))]; exact hprev y hlt
  · rw [hin (inBlock y) y (fun a => match a with
      | ⟨0, _⟩ => by rw [hoff]; show (y 0).val = 0 + (y 0).val; omega
      | ⟨1, _⟩ => by rw [hoff]; show (y 1).val = 128 * t.val + (y 1).val % 128; omega)]
    exact (hblk y (by omega)).symm

theorem mid0_block (c : Dev nD) (t : Fin cfg0.N) (ht : t.val < 32) (y : S64x4096.Idx) (hy : (y 1).val / 128 = t.val) :
    mid0 m c y = midBlock0 m c t.val ht (inBlock y) :=
  congrFun (midBlock0_congr m c hy _ _) _
theorem mid1_block (c : Dev nD) (t : Fin cfg0.N) (ht : t.val < 32) (y : S64x4096.Idx) (hy : (y 1).val / 128 = t.val) :
    mid1 m c y = midBlock1 m c t.val ht (inBlock y) :=
  congrFun (midBlock1_congr m c hy _ _) _

/-- The output window's buffer after second-pass point t. -/
def outAt (c : Dev nD) (t : Fin cfg0.N) : Vec F S2x128x64 .f32 := outSlabs (mid0 m c) (mid1 m c) (iblk m c 3 t) (iblk m c 4 t)

/-! ## The invariant -/

/-- Before point n: before the first point the scratch buffers hold anything; afterwards the projections, and
    the intermediates filled up to block n. -/
def carried (c : Dev nD) : ℕ → sProp 𝕄
  | 0 => Pipeline.ΦA spec0 c
  | n + 1 => iprop(iprop(owns (c : Thread nD τ) projBuf0 fullShare (proj0 m c) ∗ owns (c : Thread nD τ) projBuf1 fullShare (proj1 m c)
      ∗ (∃ b, ⌜FilledTo (mid0 m c) (n + 1) b⌝ ∗ owns (c : Thread nD τ) midBuf0 fullShare b)
      ∗ (∃ b, ⌜FilledTo (mid1 m c) (n + 1) b⌝ ∗ owns (c : Thread nD τ) midBuf1 fullShare b)) ∗ (∃ r, prngReg c r))

theorem carried_zero (c : Dev nD) : carried m c 0 = Pipeline.ΦA spec0 c := rfl
theorem carried_pos (c : Dev nD) (n : ℕ) (hn : n ≠ 0) :
    carried m c n = iprop(iprop(owns (c : Thread nD τ) projBuf0 fullShare (proj0 m c) ∗ owns (c : Thread nD τ) projBuf1 fullShare (proj1 m c)
      ∗ (∃ b, ⌜FilledTo (mid0 m c) n b⌝ ∗ owns (c : Thread nD τ) midBuf0 fullShare b)
      ∗ (∃ b, ⌜FilledTo (mid1 m c) n b⌝ ∗ owns (c : Thread nD τ) midBuf1 fullShare b)) ∗ (∃ r, prngReg c r)) := by
  cases n with
  | zero => exact absurd rfl hn
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := carried m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

theorem leaves0 (c : Dev nD) (t : Fin cfg0.N) :
    (dats m 0 c).leavesExact 0 t = owns (c : Thread nD τ) (stg0 t) fullShare (iblk m c 0 t) := by
  unfold Dat.leavesExact; rw [live0 t, after0]
theorem leaves1 (c : Dev nD) (t : Fin cfg0.N) :
    (dats m 0 c).leavesExact 1 t = owns (c : Thread nD τ) (stg1 t) fullShare (iblk m c 1 t) := by
  unfold Dat.leavesExact; rw [live1 t, after1]
theorem leaves2 (c : Dev nD) (t : Fin cfg0.N) :
    (dats m 0 c).leavesExact 2 t = owns (c : Thread nD τ) (stg2 t) fullShare (iblk m c 2 t) := by
  unfold Dat.leavesExact; rw [live2 t, after2]
theorem leaves3 (c : Dev nD) (t : Fin cfg0.N) :
    (dats m 0 c).leavesExact 3 t = owns (c : Thread nD τ) (stg3 t) fullShare (iblk m c 3 t) := by
  unfold Dat.leavesExact; rw [live3 t, after3]
theorem leaves4 (c : Dev nD) (t : Fin cfg0.N) :
    (dats m 0 c).leavesExact 4 t = owns (c : Thread nD τ) (stg4 t) fullShare (iblk m c 4 t) := by
  unfold Dat.leavesExact; rw [live4 t, after4]
theorem leaves5 (c : Dev nD) (t : Fin cfg0.N) :
    (dats m 0 c).leavesExact 5 t = owns (c : Thread nD τ) (stg5 t) fullShare (iblk m c 5 t) := by
  unfold Dat.leavesExact; rw [live5 t, after5]
theorem leaves6 (c : Dev nD) (t : Fin cfg0.N) :
    (dats m 0 c).leavesExact 6 t = owns (c : Thread nD τ) (stg6 t) fullShare (iblk m c 6 t) := by
  unfold Dat.leavesExact; rw [live6 t, after6]
theorem leaves7 (c : Dev nD) (t : Fin cfg0.N) :
    (dats m 0 c).leavesExact 7 t = owns (c : Thread nD τ) (stg7 t) fullShare (iblk m c 7 t) := by
  unfold Dat.leavesExact; rw [live7 t, after7]
theorem leaves8 (c : Dev nD) (t : Fin cfg0.N) :
    (dats m 0 c).leavesExact 8 t = owns (c : Thread nD τ) (stg8 t) fullShare (iblk m c 8 t) := by
  unfold Dat.leavesExact; rw [live8 t, after8]
theorem leaves9_first (c : Dev nD) (t : Fin cfg0.N) (h : t.val < 32) :
    (dats m 0 c).leavesExact 9 t = iprop(∃ d, owns (c : Thread nD τ) (stg9 t) fullShare ((dats m 0 c).before 9 t d)) :=
  (dats m 0 c).leavesExact_idle 9 t (outIdle_first t h) (outFlush_first t h)
theorem leaves9_second (c : Dev nD) (t : Fin cfg0.N) (h : 32 ≤ t.val) :
    (dats m 0 c).leavesExact 9 t = owns (c : Thread nD τ) (stg9 t) fullShare (outAt m c t) := by
  unfold Dat.leavesExact; rw [outLive_second t h, after9]

/-! ## What the body is called with and what it returns -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The body's precondition with the inputs' blocks and the invariant named. -/
def pointPre (c : Dev nD) (t : Fin cfg0.N) : sProp 𝕄 :=
  iprop(carried m c t.val ∗ (dats m 0 c).owesAt () t.castSucc
    ∗ (∃ d : (cfg0.win 0).block.Idx → Elt F (cfg0.win 0).elt, owns (c : Thread nD τ) (stg0 t) fullShare (iblk m c 0 t))
    ∗ (∃ d : (cfg0.win 1).block.Idx → Elt F (cfg0.win 1).elt, owns (c : Thread nD τ) (stg1 t) fullShare (iblk m c 1 t))
    ∗ (∃ d : (cfg0.win 2).block.Idx → Elt F (cfg0.win 2).elt, owns (c : Thread nD τ) (stg2 t) fullShare (iblk m c 2 t))
    ∗ (∃ d : (cfg0.win 3).block.Idx → Elt F (cfg0.win 3).elt, owns (c : Thread nD τ) (stg3 t) fullShare (iblk m c 3 t))
    ∗ (∃ d : (cfg0.win 4).block.Idx → Elt F (cfg0.win 4).elt, owns (c : Thread nD τ) (stg4 t) fullShare (iblk m c 4 t))
    ∗ (∃ d : (cfg0.win 5).block.Idx → Elt F (cfg0.win 5).elt, owns (c : Thread nD τ) (stg5 t) fullShare (iblk m c 5 t))
    ∗ (∃ d : (cfg0.win 6).block.Idx → Elt F (cfg0.win 6).elt, owns (c : Thread nD τ) (stg6 t) fullShare (iblk m c 6 t))
    ∗ (∃ d : (cfg0.win 7).block.Idx → Elt F (cfg0.win 7).elt, owns (c : Thread nD τ) (stg7 t) fullShare (iblk m c 7 t))
    ∗ (∃ d : (cfg0.win 8).block.Idx → Elt F (cfg0.win 8).elt, owns (c : Thread nD τ) (stg8 t) fullShare (iblk m c 8 t))
    ∗ (∃ d, owns (c : Thread nD τ) (stg9 t) fullShare ((dats m 0 c).before 9 t d)))

theorem bodyPre_eq (c : Dev nD) (t : Fin cfg0.N) : bodyPre m c t = pointPre m c t := by
  unfold bodyPre pointPre
  simp only [before0, before1, before2, before3, before4, before5, before6, before7, before8]
  rfl

end Cert.KernelIdeal.Carry

end
-- ==== Proof.KI.BlockAt.lean ====
/-
  Each window's block at a grid point, read at an entry, as an entry of the array the region finds.
  The input, the two weights and the two rows of scale factors are windows over their whole arrays: their block is
  the array at every point. A first-pass point t holds rows 128 t .. 128 t + 127 of each inverse basis, a second-pass
  point t rows 128 (t - 32) .. of each basis, and writes rows 128 (t - 32) .. of both slabs of the result. The rows
  of scale factors are the [4096, 1] arguments laid out as [1, 4096] rows by the host before the region.
-/
import proofs.«116479_g53661321397056_cont_9to1_m_18_15_alg».proof.Proof.KI.Invariant
import Idealize.ShloMosaic.Lib.ValueIdx
import Idealize.ShloMosaic.Lib.Pipeline.Value
import Idealize.ShloMosaic.Lib.StableHlo.Run

set_option maxRecDepth 16384

noncomputable section

namespace Cert.KernelIdeal.ValueLeg

open Cert.KernelIdeal Cert.KernelIdeal.Gen Cert.KernelIdeal.Carry
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-! ## The printed index maps, decided over the grid -/

theorem whole_idx : ∀ t : Fin cfg0.N, win0_0.index t (0 : Fin 2) = 0 ∧ win0_0.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem first_idx : ∀ t : Fin cfg0.N, t.val < 32 → win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem second_idx : ∀ t : Fin cfg0.N, 32 ≤ t.val → win0_3.index t (0 : Fin 2) = t.val - 32 ∧ win0_3.index t (1 : Fin 2) = 0
    ∧ win0_4.index t (0 : Fin 2) = t.val - 32 ∧ win0_4.index t (1 : Fin 2) = 0
    ∧ win0_9.index t (0 : Fin 3) = 0 ∧ win0_9.index t (1 : Fin 3) = t.val - 32 ∧ win0_9.index t (2 : Fin 3) = 0 :=
  (by decide +kernel : ∀ t : Fin grid0.N, _)

/-! ## Blocks of whole arrays -/

/-- The input's block is the input. -/
theorem input_at (c : Dev nD) (t : Fin cfg0.N) (a : Fin 4096) (b : Fin 64) : iblk m c 0 t (ix2 a b) = V m c main_arg0 (ix2 a b) := by
  obtain ⟨e0, e1, e2, e3, e4, e5, e6, e7, e8, e9⟩ := whole_idx t
  show V m c main_arg0 (((cfg0.win 0).blk t).view.emb (ix2 a b)) = V m c main_arg0 (ix2 a b)
  refine congrArg _ (funext fun ax => Fin.ext ?_)
  match ax with
  | ⟨0, _⟩ => show win0_0.index t (0 : Fin 2) * 4096 + 1 * a.val = a.val; omega
  | ⟨1, _⟩ => show win0_0.index t (1 : Fin 2) * 64 + 1 * b.val = b.val; omega

/-- The first weight's block is the weight. -/
theorem weight0_at (c : Dev nD) (t : Fin cfg0.N) (a : Fin 64) (b : Fin 64) : iblk m c 5 t (ix2 a b) = V m c main_arg5 (ix2 a b) := by
  obtain ⟨e0, e1, e2, e3, e4, e5, e6, e7, e8, e9⟩ := whole_idx t
  show V m c main_arg5 (((cfg0.win 5).blk t).view.emb (ix2 a b)) = V m c main_arg5 (ix2 a b)
  refine congrArg _ (funext fun ax => Fin.ext ?_)
  match ax with
  | ⟨0, _⟩ => show win0_5.index t (0 : Fin 2) * 64 + 1 * a.val = a.val; omega
  | ⟨1, _⟩ => show win0_5.index t (1 : Fin 2) * 64 + 1 * b.val = b.val; omega

/-- The second weight's block is the weight. -/
theorem weight1_at (c : Dev nD) (t : Fin cfg0.N) (a : Fin 64) (b : Fin 64) : iblk m c 6 t (ix2 a b) = V m c main_arg6 (ix2 a b) := by
  obtain ⟨e0, e1, e2, e3, e4, e5, e6, e7, e8, e9⟩ := whole_idx t
  show V m c main_arg6 (((cfg0.win 6).blk t).view.emb (ix2 a b)) = V m c main_arg6 (ix2 a b)
  refine congrArg _ (funext fun ax => Fin.ext ?_)
  match ax with
  | ⟨0, _⟩ => show win0_6.index t (0 : Fin 2) * 64 + 1 * a.val = a.val; omega
  | ⟨1, _⟩ => show win0_6.index t (1 : Fin 2) * 64 + 1 * b.val = b.val; omega

/-- The first row of scale factors, whole. -/
theorem scaleRow0_at (c : Dev nD) (t : Fin cfg0.N) (a : Fin 1) (b : Fin 4096) : iblk m c 7 t (ix2 a b) = V m c main_v0 (ix2 a b) := by
  obtain ⟨e0, e1, e2, e3, e4, e5, e6, e7, e8, e9⟩ := whole_idx t
  show V m c main_v0 (((cfg0.win 7).blk t).view.emb (ix2 a b)) = V m c main_v0 (ix2 a b)
  refine congrArg _ (funext fun ax => Fin.ext ?_)
  match ax with
  | ⟨0, _⟩ => show win0_7.index t (0 : Fin 2) * 1 + 1 * a.val = a.val; omega
  | ⟨1, _⟩ => show win0_7.index t (1 : Fin 2) * 4096 + 1 * b.val = b.val; omega

/-- The second row of scale factors, whole. -/
theorem scaleRow1_at (c : Dev nD) (t : Fin cfg0.N) (a : Fin 1) (b : Fin 4096) : iblk m c 8 t (ix2 a b) = V m c main_v1 (ix2 a b) := by
  obtain ⟨e0, e1, e2, e3, e4, e5, e6, e7, e8, e9⟩ := whole_idx t
  show V m c main_v1 (((cfg0.win 8).blk t).view.emb (ix2 a b)) = V m c main_v1 (ix2 a b)
  refine congrArg _ (funext fun ax => Fin.ext ?_)
  match ax with
  | ⟨0, _⟩ => show win0_8.index t (0 : Fin 2) * 1 + 1 * a.val = a.val; omega
  | ⟨1, _⟩ => show win0_8.index t (1 : Fin 2) * 4096 + 1 * b.val = b.val; omega

/-! ## Row blocks of the bases -/

/-- Rows 128 t .. of the first inverse basis at a first-pass point. -/
theorem invBasis0_at (c : Dev nD) (t : Fin cfg0.N) (ht : t.val < 32) (a : Fin 128) (b : Fin 4096) :
    iblk m c 1 t (ix2 a b) = V m c main_arg1 (ix2 (⟨128 * t.val + a.val, by have ha := a.isLt; have h := t.isLt; have hN : cfg0.N = 64 := N_eq; omega⟩ : Fin 4096) b) := by
  obtain ⟨e0, e1, e2, e3⟩ := first_idx t ht
  show V m c main_arg1 (((cfg0.win 1).blk t).view.emb (ix2 a b)) = V m c main_arg1 (ix2 _ b)
  refine congrArg _ (funext fun ax => Fin.ext ?_)
  match ax with
  | ⟨0, _⟩ => show win0_1.index t (0 : Fin 2) * 128 + 1 * a.val = 128 * t.val + a.val; omega
  | ⟨1, _⟩ => show win0_1.index t (1 : Fin 2) * 4096 + 1 * b.val = b.val; omega

/-- Rows 128 t .. of the second inverse basis at a first-pass point. -/
theorem invBasis1_at (c : Dev nD) (t : Fin cfg0.N) (ht : t.val < 32) (a : Fin 128) (b : Fin 4096) :
    iblk m c 2 t (ix2 a b) = V m c main_arg3 (ix2 (⟨128 * t.val + a.val, by have ha := a.isLt; have h := t.isLt; have hN : cfg0.N = 64 := N_eq; omega⟩ : Fin 4096) b) := by
  obtain ⟨e0, e1, e2, e3⟩ := first_idx t ht
  show V m c main_arg3 (((cfg0.win 2).blk t).view.emb (ix2 a b)) = V m c main_arg3 (ix2 _ b)
  refine congrArg _ (funext fun ax => Fin.ext ?_)
  match ax with
  | ⟨0, _⟩ => show win0_2.index t (0 : Fin 2) * 128 + 1 * a.val = 128 * t.val + a.val; omega
  | ⟨1, _⟩ => show win0_2.index t (1 : Fin 2) * 4096 + 1 * b.val = b.val; omega

/-- Rows 128 (t - 32) .. of the first basis at a second-pass point. -/
theorem basis0_at (c : Dev nD) (t : Fin cfg0.N) (ht : 32 ≤ t.val) (a : Fin 128) (b : Fin 4096) :
    iblk m c 3 t (ix2 a b) = V m c main_arg2 (ix2 (⟨128 * (t.val - 32) + a.val, by have ha := a.isLt; have h := t.isLt; have hN : cfg0.N = 64 := N_eq; omega⟩ : Fin 4096) b) := by
  obtain ⟨e0, e1, e2, e3, e4, e5, e6⟩ := second_idx t ht
  show V m c main_arg2 (((cfg0.win 3).blk t).view.emb (ix2 a b)) = V m c main_arg2 (ix2 _ b)
  refine congrArg _ (funext fun ax => Fin.ext ?_)
  match ax with
  | ⟨0, _⟩ => show win0_3.index t (0 : Fin 2) * 128 + 1 * a.val = 128 * (t.val - 32) + a.val; omega
  | ⟨1, _⟩ => show win0_3.index t (1 : Fin 2) * 4096 + 1 * b.val = b.val; omega

/-- Rows 128 (t - 32) .. of the second basis at a second-pass point. -/
theorem basis1_at (c : Dev nD) (t : Fin cfg0.N) (ht : 32 ≤ t.val) (a : Fin 128) (b : Fin 4096) :
    iblk m c 4 t (ix2 a b) = V m c main_arg4 (ix2 (⟨128 * (t.val - 32) + a.val, by have ha := a.isLt; have h := t.isLt; have hN : cfg0.N = 64 := N_eq; omega⟩ : Fin 4096) b) := by
  obtain ⟨e0, e1, e2, e3, e4, e5, e6⟩ := second_idx t ht
  show V m c main_arg4 (((cfg0.win 4).blk t).view.emb (ix2 a b)) = V m c main_arg4 (ix2 _ b)
  refine congrArg _ (funext fun ax => Fin.ext ?_)
  match ax with
  | ⟨0, _⟩ => show win0_4.index t (0 : Fin 2) * 128 + 1 * a.val = 128 * (t.val - 32) + a.val; omega
  | ⟨1, _⟩ => show win0_4.index t (1 : Fin 2) * 4096 + 1 * b.val = b.val; omega

/-! ## The rows of scale factors the host laid out -/

/-- Entry r of the first row is entry (r, 0) of the [4096, 1] argument. -/
theorem scaleRow0_arg (c : Dev nD) (r : Fin 4096) :
    V m c main_v0 (ix2 (0 : Fin 1) r) = m ((c : Thread nD τ).loc main_arg7) (ix2 r (0 : Fin 1)) := by
  have e : (V m c main_v0 : S1x4096.Idx → Elt F .f32) = shapeCast S1x4096 (m ((c : Thread nD τ).loc main_arg7)) shapeCasts_S4096x1_S1x4096 := by
    dsimp only [Gen.V, Gen.hostOps0]; after_results; rfl
  rw [e]
  refine shapeCast_apply (s := S4096x1) (t := S1x4096) _ _ (ix2 (0 : Fin 1) r) (ix2 r (0 : Fin 1)) ?_
  show (S4096x1.rowMajor (ix2 r (0 : Fin 1))).val = (S1x4096.rowMajor (ix2 (0 : Fin 1) r)).val
  rw [Shape.rowMajor_val_two, Shape.rowMajor_val_two]; show r.val * 1 + 0 = 0 * 4096 + r.val; omega

theorem scaleRow1_arg (c : Dev nD) (r : Fin 4096) :
    V m c main_v1 (ix2 (0 : Fin 1) r) = m ((c : Thread nD τ).loc main_arg8) (ix2 r (0 : Fin 1)) := by
  have e : (V m c main_v1 : S1x4096.Idx → Elt F .f32) = shapeCast S1x4096 (m ((c : Thread nD τ).loc main_arg8)) shapeCasts_S4096x1_S1x4096 := by
    dsimp only [Gen.V, Gen.hostOps0]; after_results; rfl
  rw [e]
  refine shapeCast_apply (s := S4096x1) (t := S1x4096) _ _ (ix2 (0 : Fin 1) r) (ix2 r (0 : Fin 1)) ?_
  show (S4096x1.rowMajor (ix2 r (0 : Fin 1))).val = (S1x4096.rowMajor (ix2 (0 : Fin 1) r)).val
  rw [Shape.rowMajor_val_two, Shape.rowMajor_val_two]; show r.val * 1 + 0 = 0 * 4096 + r.val; omega

/-! ## The scale factors of a block -/

/-- The 128 scale factors point t of the first pass reads are entries 128 t .. of the row. -/
theorem scaleBlock_at (k : Vec F S1x4096 .f32) (t : Fin cfg0.N) (ht : t.val < 32) (h : InFirstPass (grid0.coords t)) (a : Fin 128) :
    scaleBlock (grid0.coords t) h k (ix2 (0 : Fin 1) a) = k (ix2 (0 : Fin 1) (⟨128 * t.val + a.val, by have ha := a.isLt; omega⟩ : Fin 4096)) := by
  unfold scaleBlock
  show k ((Rect.unit (s := S1x4096) (k0_off1 (grid0.coords t)) S1x128.size (k0_off1_inb (grid0.coords t) h)).emb (ix2 (0 : Fin 1) a)) = _
  refine congrArg _ (funext fun ax => Fin.ext ?_)
  have hoff : k0_off1 (grid0.coords t) = ![0, 128 * t.val] := by rw [k0_off1_eq, colBlock, Nat.mod_eq_of_lt ht]
  match ax with
  | ⟨0, _⟩ => show k0_off1 (grid0.coords t) 0 + 1 * 0 = 0; rw [hoff]; rfl
  | ⟨1, _⟩ => show k0_off1 (grid0.coords t) 1 + 1 * a.val = 128 * t.val + a.val; rw [hoff]; show 128 * t.val + 1 * a.val = _; omega

end Cert.KernelIdeal.ValueLeg

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.LibMatmulLeftT.lean ====
/-
  A TensorCore matrix product whose LEFT factor is contracted along its rows, read at an entry. At exact arithmetic
  the product of a K×m block (contracted along axis 0) by an n×K block (contracted along axis 1) into a zero
  accumulator has at entry (p, q) the sum over k of left (k, p) · right (q, k): the left factor transposed times the
  right factor transposed. Stated for any dimension record of these three shapes, given where it sends an output
  index and a contraction index.
-/
import Idealize.ShloMosaic.Lib.ValueIdx
import Idealize.ShloMosaic.PureOps.Ideal.Laws

noncomputable section

namespace Cert.Lib.MatmulLeftT

open Idealize.ShloMosaic Idealize.ShloMosaic.TcCoe Idealize.SL.Sem Idealize.ShloMosaic.ValueIdx

/-- A TensorCore product of a K×m block by an n×K block, the left contracted along its rows and the right along its
    columns, into a zero accumulator, read at entry (p, q): the sum over k of left (k, p) · right (q, k). The four
    hypotheses say where the product's dimension numbers send an output index and a contraction index: to
    (k, row) on the left and (column, k) on the right. -/
theorem matmul_tt_zero_ix2 {m K n : Nat} {φ₁ φ₂ : FTy} (D : DotDims ⟨2, ![K, m]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (c ⟨0, by omega⟩).val)
    (hl1 : ∀ (i : (⟨2, ![m, n]⟩ : Shape).Idx) (c : D.contr.Idx), (D.lhsIdx i c 1).val = (i 0).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![K, m]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 k p) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun a => Fin.ext (by
    match a with
    | ⟨0, _⟩ => exact (hl0 _ _).trans hk
    | ⟨1, _⟩ => exact hl1 _ _)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.MatmulLeftT

end
-- ==== Proof.KI.PayloadAt.lean ====
/-
  The body's three kinds of stored value, each read at one entry, at exact arithmetic.
  * A projected input (rows = output features d, columns = nodes n): entry (d, n) is the sum over input features j
    of weight (j, d) · input (n, j).
  * A column block of a scaled intermediate: entry (d, r) is the block's scale factor at r times the sum over nodes n
    of projected (d, n) · inverse-basis block (r, n).
  * An output slab (rows = the block's nodes q, columns = output features d): entry (q, d) is the larger of zero and
    the sum over nodes r of intermediate (d, r) · basis block (q, r).
  The second weight, the second intermediate and the second slab are computed by the same operations as the first.
-/
import proofs.«116479_g53661321397056_cont_9to1_m_18_15_alg».proof.Proof.Gen.KernelIdeal.Skeleton
import proofs.«116479_g53661321397056_cont_9to1_m_18_15_alg».proof.Proof.LibRowOps
import proofs.«116479_g53661321397056_cont_9to1_m_18_15_alg».proof.Proof.LibMatmulLeftT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen
open Idealize.ShloMosaic Idealize.ShloMosaic.TcCoe Idealize.SL.Sem Idealize.ShloMosaic.ValueIdx

/-! ## Where the two products' dimension numbers send an index -/

theorem projL0 (i : S64x4096.Idx) (c : dot_S64x64_S4096x64_S64x4096_0_1_1_0_n_n.contr.Idx) : (dot_S64x64_S4096x64_S64x4096_0_1_1_0_n_n.lhsIdx i c 0).val = (c ⟨0, by decide⟩).val :=
  dot_S64x64_S4096x64_S64x4096_0_1_1_0_n_n.lhsIdx_val_of_single rfl i c
theorem projL1 (i : S64x4096.Idx) (c : dot_S64x64_S4096x64_S64x4096_0_1_1_0_n_n.contr.Idx) : (dot_S64x64_S4096x64_S64x4096_0_1_1_0_n_n.lhsIdx i c 1).val = (i 0).val := by
  unfold DotDims.lhsIdx
  rw [dif_neg (show ¬(1 : Fin S64x64.rank) ∈ dot_S64x64_S4096x64_S64x4096_0_1_1_0_n_n.lhsBatch by decide), dif_pos (show (1 : Fin S64x64.rank) ∈ dot_S64x64_S4096x64_S64x4096_0_1_1_0_n_n.lhsNonContracting by decide)]
  rfl
theorem projR0 (i : S64x4096.Idx) (c : dot_S64x64_S4096x64_S64x4096_0_1_1_0_n_n.contr.Idx) : (dot_S64x64_S4096x64_S64x4096_0_1_1_0_n_n.rhsIdx i c 0).val = (i 1).val := by
  unfold DotDims.rhsIdx
  rw [dif_neg (show ¬(0 : Fin S4096x64.rank) ∈ dot_S64x64_S4096x64_S64x4096_0_1_1_0_n_n.rhsBatch by decide), dif_pos (show (0 : Fin S4096x64.rank) ∈ dot_S64x64_S4096x64_S64x4096_0_1_1_0_n_n.rhsNonContracting by decide)]
  rfl
theorem projR1 (i : S64x4096.Idx) (c : dot_S64x64_S4096x64_S64x4096_0_1_1_0_n_n.contr.Idx) : (dot_S64x64_S4096x64_S64x4096_0_1_1_0_n_n.rhsIdx i c 1).val = (c ⟨0, by decide⟩).val :=
  dot_S64x64_S4096x64_S64x4096_0_1_1_0_n_n.rhsIdx_val_of_single rfl i c

theorem ntL0 (i : S64x128.Idx) (c : dot_S64x4096_S128x4096_S64x128_1_1_0_0_n_n.contr.Idx) : (dot_S64x4096_S128x4096_S64x128_1_1_0_0_n_n.lhsIdx i c 0).val = (i 0).val := by
  unfold DotDims.lhsIdx
  rw [dif_neg (show ¬(0 : Fin S64x4096.rank) ∈ dot_S64x4096_S128x4096_S64x128_1_1_0_0_n_n.lhsBatch by decide), dif_pos (show (0 : Fin S64x4096.rank) ∈ dot_S64x4096_S128x4096_S64x128_1_1_0_0_n_n.lhsNonContracting by decide)]
  rfl
theorem ntL1 (i : S64x128.Idx) (c : dot_S64x4096_S128x4096_S64x128_1_1_0_0_n_n.contr.Idx) : (dot_S64x4096_S128x4096_S64x128_1_1_0_0_n_n.lhsIdx i c 1).val = (c ⟨0, by decide⟩).val :=
  dot_S64x4096_S128x4096_S64x128_1_1_0_0_n_n.lhsIdx_val_of_single rfl i c
theorem ntR0 (i : S64x128.Idx) (c : dot_S64x4096_S128x4096_S64x128_1_1_0_0_n_n.contr.Idx) : (dot_S64x4096_S128x4096_S64x128_1_1_0_0_n_n.rhsIdx i c 0).val = (i 1).val := by
  unfold DotDims.rhsIdx
  rw [dif_neg (show ¬(0 : Fin S128x4096.rank) ∈ dot_S64x4096_S128x4096_S64x128_1_1_0_0_n_n.rhsBatch by decide), dif_pos (show (0 : Fin S128x4096.rank) ∈ dot_S64x4096_S128x4096_S64x128_1_1_0_0_n_n.rhsNonContracting by decide)]
  rfl
theorem ntR1 (i : S64x128.Idx) (c : dot_S64x4096_S128x4096_S64x128_1_1_0_0_n_n.contr.Idx) : (dot_S64x4096_S128x4096_S64x128_1_1_0_0_n_n.rhsIdx i c 1).val = (c ⟨0, by decide⟩).val :=
  dot_S64x4096_S128x4096_S64x128_1_1_0_0_n_n.rhsIdx_val_of_single rfl i c

/-! ## The three stored values at an entry -/

/-- A projected input at (d, n): the sum over input features of weight (j, d) · input (n, j). -/
theorem proj_at (w : Vec Ideal S64x64 .f32) (x : Vec Ideal S4096x64 .f32) (d : Fin 64) (n : Fin 4096) :
    k0_pay1 (F := Ideal) w x (ix2 d n) = ∑ j : Fin 64, w (ix2 j d) * x (ix2 n j) := by
  unfold k0_pay1
  refine (congrFun (shapeCast_self _ _) _).trans ?_
  exact Cert.Lib.MatmulLeftT.matmul_tt_zero_ix2 dot_S64x64_S4096x64_S64x4096_0_1_1_0_n_n rfl rfl projL0 projL1 projR0 projR1 w x d n

/-- The second projected input is computed by the same operations. -/
theorem proj_second : @k0_pay2 Ideal _ = @k0_pay1 Ideal _ := rfl

/-- A column block of a scaled intermediate at (d, r): the scale factor at r times the sum over nodes of
    projected (d, n) · inverse-basis block (r, n). -/
theorem mid_at (p : Vec Ideal S64x4096 .f32) (b : Vec Ideal S128x4096 .f32) (k : Vec Ideal S1x128 .f32) (d : Fin 64) (r : Fin 128) :
    k0_pay3 (F := Ideal) p b k (ix2 d r) = k (ix2 (0 : Fin 1) r) * ∑ n : Fin 4096, p (ix2 d n) * b (ix2 r n) := by
  unfold k0_pay3
  refine (congrFun (shapeCast_self _ _) _).trans ?_
  refine (mulf_apply _ _ _).trans ?_
  refine congrArg₂ (· * ·) ?_ ?_
  · refine (broadcastTo_1b_ab_apply _ _ d r).trans ?_
    exact congrFun (shapeCast_self _ _) _
  · exact Cert.Lib.RowOps.matmul_nt_zero_ix2 dot_S64x4096_S128x4096_S64x128_1_1_0_0_n_n rfl rfl ntL0 ntL1 ntR0 ntR1 p b d r

theorem mid_second : @k0_pay4 Ideal _ = @k0_pay3 Ideal _ := rfl

/-- An output slab at (q, d): the larger of zero and the sum over nodes of intermediate (d, r) · basis block (q, r). -/
theorem out_at (y : Vec Ideal S64x4096 .f32) (b : Vec Ideal S128x4096 .f32) (u : Fin 1) (q : Fin 128) (d : Fin 64) :
    k0_pay5 (F := Ideal) y b (ix3 u q d) = max (∑ r : Fin 4096, y (ix2 d r) * b (ix2 q r)) 0 := by
  unfold k0_pay5
  refine (shapeCast_ab_1ab_apply _ _ u q d).trans ?_
  refine (transpose_ix2_apply _ _ q d).trans ?_
  refine (maximumf_apply _ _ _).trans ?_
  refine congrArg₂ max ?_ ?_
  · exact Cert.Lib.RowOps.matmul_nt_zero_ix2 dot_S64x4096_S128x4096_S64x128_1_1_0_0_n_n rfl rfl ntL0 ntL1 ntR0 ntR1 y b d q
  · exact Ideal.ofBits_zero_f32

theorem out_second : @k0_pay6 Ideal _ = @k0_pay5 Ideal _ := rfl

end Cert.KernelIdeal.PayloadAt

end
-- ==== Proof.Spec.lean ====
/-
  The result both programs compute, as one function of the argument arrays over the extended reals.
  For each of the two scales, with basis phi, inverse basis pinv, weight W and per-node scale k, entry (q, d) of the
  scale's slab is the larger of zero and

      the sum over nodes r of  phi (q, r) · ( k (r) · the sum over nodes n of  pinv (r, n) · the sum over input features j of  x (n, j) · W (j, d) ).

  The kernel forms every product with its two factors the other way round (it keeps the intermediate arrays
  transposed); since the product of extended reals is commutative the two readings agree term by term, and no
  sum is rearranged: nothing here needs the inputs to be finite.
-/
import Idealize.ShloMosaic.Lib.ValueIdx
import Idealize.ShloMosaic.PureOps.Ideal

noncomputable section

namespace Cert.Spec

open Idealize.ShloMosaic Idealize.ShloMosaic.ValueIdx
open scoped BigOperators

/-- A matrix of extended reals, indexed as the programs' rank-2 arrays are. -/
abbrev Mat (a b : ℕ) : Type := (⟨2, ![a, b]⟩ : Shape).Idx → EReal

/-- One scale's slab at (q, d), the factors in the reference's order. -/
def slabAt (x : Mat 4096 64) (pinv phi : Mat 4096 4096) (W : Mat 64 64) (k : Mat 4096 1) (q : Fin 4096) (d : Fin 64) : EReal :=
  max (∑ r : Fin 4096, phi (ix2 q r) * (k (ix2 r (0 : Fin 1)) * ∑ n : Fin 4096, pinv (ix2 r n) * ∑ j : Fin 64, x (ix2 n j) * W (ix2 j d))) 0

/-- The same slab with the factors in the kernel's order. -/
def slabAtT (x : Mat 4096 64) (pinv phi : Mat 4096 4096) (W : Mat 64 64) (k : Mat 4096 1) (q : Fin 4096) (d : Fin 64) : EReal :=
  max (∑ r : Fin 4096, (k (ix2 r (0 : Fin 1)) * ∑ n : Fin 4096, (∑ j : Fin 64, W (ix2 j d) * x (ix2 n j)) * pinv (ix2 r n)) * phi (ix2 q r)) 0

/-- The two orders give one number: each product is commuted where it stands. -/
theorem slabAtT_eq (x : Mat 4096 64) (pinv phi : Mat 4096 4096) (W : Mat 64 64) (k : Mat 4096 1) (q : Fin 4096) (d : Fin 64) :
    slabAtT x pinv phi W k q d = slabAt x pinv phi W k q d := by
  unfold slabAtT slabAt
  refine congrArg (max · 0) (Finset.sum_congr rfl fun r _ => ?_)
  rw [mul_comm]
  refine congrArg (phi (ix2 q r) * ·) (congrArg (k (ix2 r (0 : Fin 1)) * ·) (Finset.sum_congr rfl fun n _ => ?_))
  rw [mul_comm]
  exact congrArg (pinv (ix2 r n) * ·) (Finset.sum_congr rfl fun j _ => mul_comm _ _)

/-- The whole result: slab 0 from the first scale's arrays, slab 1 from the second's. -/
def result (x : Mat 4096 64) (pinv0 phi0 pinv1 phi1 : Mat 4096 4096) (W0 W1 : Mat 64 64) (k0 k1 : Mat 4096 1) :
    (⟨3, ![2, 4096, 64]⟩ : Shape).Idx → EReal := fun i =>
  if (i 0).val = 0 then slabAt x pinv0 phi0 W0 k0 (i 1) (i 2) else slabAt x pinv1 phi1 W1 k1 (i 1) (i 2)

end Cert.Spec

end
-- ==== Proof.KI.SlabAt.lean ====
/-
  The kernel's stored values at an entry, at exact arithmetic, in terms of the arrays the region finds.
  * projected (d, n) = the sum over j of weight (j, d) · input (n, j);
  * intermediate (d, r) = scale (r) · the sum over n of projected (d, n) · inverse basis (r, n), whichever first-pass
    point computed column r (point r / 128, at position r % 128 of its block);
  * slab entry (q', d) at second-pass point t = the larger of zero and the sum over r of intermediate (d, r) ·
    basis (128 (t - 32) + q', r): the specification's slab, in the kernel's factor order, at row 128 (t - 32) + q'.
-/
import proofs.«116479_g53661321397056_cont_9to1_m_18_15_alg».proof.Proof.KI.BlockAt
import proofs.«116479_g53661321397056_cont_9to1_m_18_15_alg».proof.Proof.KI.PayloadAt
import proofs.«116479_g53661321397056_cont_9to1_m_18_15_alg».proof.Proof.Spec

set_option maxRecDepth 16384

noncomputable section

namespace Cert.KernelIdeal.ValueLeg

open Cert.KernelIdeal Cert.KernelIdeal.Gen Cert.KernelIdeal.Carry
open Idealize.ShloMosaic Idealize.ShloMosaic.TcCoe Idealize.SL.Sem Idealize.ShloMosaic.ValueIdx
open Cert.Spec (Mat)
open scoped BigOperators

variable (m : (ℓ : Loc nD τ sig) → Buf (Elt Ideal) ℓ)

/-! ## The arrays the region finds, as matrices of extended reals -/

abbrev inputA (c : Dev nD) : Mat 4096 64 := V m c main_arg0
abbrev invBasisA0 (c : Dev nD) : Mat 4096 4096 := V m c main_arg1
abbrev basisA0 (c : Dev nD) : Mat 4096 4096 := V m c main_arg2
abbrev invBasisA1 (c : Dev nD) : Mat 4096 4096 := V m c main_arg3
abbrev basisA1 (c : Dev nD) : Mat 4096 4096 := V m c main_arg4
abbrev weightA0 (c : Dev nD) : Mat 64 64 := V m c main_arg5
abbrev weightA1 (c : Dev nD) : Mat 64 64 := V m c main_arg6
abbrev scaleRowA0 (c : Dev nD) : Mat 1 4096 := V m c main_v0
abbrev scaleRowA1 (c : Dev nD) : Mat 1 4096 := V m c main_v1
abbrev scaleA0 (c : Dev nD) : Mat 4096 1 := m ((c : Thread nD τ).loc main_arg7)
abbrev scaleA1 (c : Dev nD) : Mat 4096 1 := m ((c : Thread nD τ).loc main_arg8)

theorem proj0_entry (c : Dev nD) (d : Fin 64) (n : Fin 4096) :
    proj0 m c (ix2 d n) = ∑ j : Fin 64, weightA0 m c (ix2 j d) * inputA m c (ix2 n j) := by
  unfold proj0
  refine (PayloadAt.proj_at (iblk m c 5 startPt) (iblk m c 0 startPt) d n).trans ?_
  exact Finset.sum_congr rfl fun j _ => congrArg₂ (· * ·) (weight0_at m c startPt j d) (input_at m c startPt n j)

theorem proj1_entry (c : Dev nD) (d : Fin 64) (n : Fin 4096) :
    proj1 m c (ix2 d n) = ∑ j : Fin 64, weightA1 m c (ix2 j d) * inputA m c (ix2 n j) := by
  unfold proj1
  refine (PayloadAt.proj_at (iblk m c 6 startPt) (iblk m c 0 startPt) d n).trans ?_
  exact Finset.sum_congr rfl fun j _ => congrArg₂ (· * ·) (weight1_at m c startPt j d) (input_at m c startPt n j)

theorem mid0_entry (c : Dev nD) (d : Fin 64) (r : Fin 4096) :
    mid0 m c (ix2 d r) = scaleRowA0 m c (ix2 (0 : Fin 1) r) * ∑ n : Fin 4096, proj0 m c (ix2 d n) * invBasisA0 m c (ix2 r n) := by
  have hb : r.val / 128 < 32 := by have := r.isLt; omega
  have hm : r.val % 128 < 128 := Nat.mod_lt _ (by norm_num)
  show k0_pay3 (F := Ideal) (proj0 m c) (iblk m c 1 (firstPt (r.val / 128) hb))
    (scaleBlock (grid0.coords (firstPt (r.val / 128) hb)) ((inFirstPass_iff _).mpr hb) (iblk m c 7 (firstPt (r.val / 128) hb))) (ix2 d ⟨r.val % 128, hm⟩) = _
  refine (PayloadAt.mid_at _ _ _ d ⟨r.val % 128, hm⟩).trans ?_
  refine congrArg₂ (· * ·) ?_ (Finset.sum_congr rfl fun n _ => congrArg (proj0 m c (ix2 d n) * ·) ?_)
  · exact ((scaleBlock_at _ (firstPt (r.val / 128) hb) hb _ ⟨r.val % 128, hm⟩).trans (scaleRow0_at m c _ 0 _)).trans
      (congrArg (fun z => scaleRowA0 m c (ix2 (0 : Fin 1) z)) (Fin.ext (by show 128 * (r.val / 128) + r.val % 128 = r.val; omega)))
  · exact (invBasis0_at m c (firstPt (r.val / 128) hb) hb ⟨r.val % 128, hm⟩ n).trans
      (congrArg (fun z => invBasisA0 m c (ix2 z n)) (Fin.ext (by show 128 * (r.val / 128) + r.val % 128 = r.val; omega)))

theorem mid1_entry (c : Dev nD) (d : Fin 64) (r : Fin 4096) :
    mid1 m c (ix2 d r) = scaleRowA1 m c (ix2 (0 : Fin 1) r) * ∑ n : Fin 4096, proj1 m c (ix2 d n) * invBasisA1 m c (ix2 r n) := by
  have hb : r.val / 128 < 32 := by have := r.isLt; omega
  have hm : r.val % 128 < 128 := Nat.mod_lt _ (by norm_num)
  show k0_pay3 (F := Ideal) (proj1 m c) (iblk m c 2 (firstPt (r.val / 128) hb))
    (scaleBlock (grid0.coords (firstPt (r.val / 128) hb)) ((inFirstPass_iff _).mpr hb) (iblk m c 8 (firstPt (r.val / 128) hb))) (ix2 d ⟨r.val % 128, hm⟩) = _
  refine (PayloadAt.mid_at _ _ _ d ⟨r.val % 128, hm⟩).trans ?_
  refine congrArg₂ (· * ·) ?_ (Finset.sum_congr rfl fun n _ => congrArg (proj1 m c (ix2 d n) * ·) ?_)
  · exact ((scaleBlock_at _ (firstPt (r.val / 128) hb) hb _ ⟨r.val % 128, hm⟩).trans (scaleRow1_at m c _ 0 _)).trans
      (congrArg (fun z => scaleRowA1 m c (ix2 (0 : Fin 1) z)) (Fin.ext (by show 128 * (r.val / 128) + r.val % 128 = r.val; omega)))
  · exact (invBasis1_at m c (firstPt (r.val / 128) hb) hb ⟨r.val % 128, hm⟩ n).trans
      (congrArg (fun z => invBasisA1 m c (ix2 z n)) (Fin.ext (by show 128 * (r.val / 128) + r.val % 128 = r.val; omega)))

/-- The row of the result a second-pass point's block row q' is. -/
def outRow (t : Fin cfg0.N) (q' : Fin 128) : Fin 4096 :=
  ⟨128 * (t.val - 32) + q'.val, by have hq := q'.isLt; have h := t.isLt; have hN : cfg0.N = 64 := N_eq; omega⟩

theorem slab0_entry (c : Dev nD) (t : Fin cfg0.N) (h2 : 32 ≤ t.val) (q' : Fin 128) (d : Fin 64) :
    k0_pay5 (F := Ideal) (mid0 m c) (iblk m c 3 t) (ix3 (0 : Fin 1) q' d)
      = Cert.Spec.slabAtT (inputA m c) (invBasisA0 m c) (basisA0 m c) (weightA0 m c) (scaleA0 m c) (outRow t q') d := by
  refine (PayloadAt.out_at _ _ 0 q' d).trans ?_
  unfold Cert.Spec.slabAtT
  refine congrArg (max · 0) (Finset.sum_congr rfl fun r _ => ?_)
  refine congrArg₂ (· * ·) ?_ (basis0_at m c t h2 q' r)
  refine (mid0_entry m c d r).trans ?_
  refine congrArg₂ (· * ·) (scaleRow0_arg m c r) (Finset.sum_congr rfl fun n _ => ?_)
  exact congrArg (· * invBasisA0 m c (ix2 r n)) (proj0_entry m c d n)

theorem slab1_entry (c : Dev nD) (t : Fin cfg0.N) (h2 : 32 ≤ t.val) (q' : Fin 128) (d : Fin 64) :
    k0_pay5 (F := Ideal) (mid1 m c) (iblk m c 4 t) (ix3 (0 : Fin 1) q' d)
      = Cert.Spec.slabAtT (inputA m c) (invBasisA1 m c) (basisA1 m c) (weightA1 m c) (scaleA1 m c) (outRow t q') d := by
  refine (PayloadAt.out_at _ _ 0 q' d).trans ?_
  unfold Cert.Spec.slabAtT
  refine congrArg (max · 0) (Finset.sum_congr rfl fun r _ => ?_)
  refine congrArg₂ (· * ·) ?_ (basis1_at m c t h2 q' r)
  refine (mid1_entry m c d r).trans ?_
  refine congrArg₂ (· * ·) (scaleRow1_arg m c r) (Finset.sum_congr rfl fun n _ => ?_)
  exact congrArg (· * invBasisA1 m c (ix2 r n)) (proj1_entry m c d n)

end Cert.KernelIdeal.ValueLeg

end
-- ==== Proof.KI.BodyStart.lean ====
/-
  The body obligation at the first grid point: from scratch buffers holding anything, the run leaves the two
  projections in place and both intermediates filled up to block 1.
-/
import proofs.«116479_g53661321397056_cont_9to1_m_18_15_alg».proof.Proof.KI.Invariant

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem body_start (c : Dev nD) : pointPre m c startPt ⊢ wp frame (wpE (defs₀ (F := F)) Variants.none c none) Set.univ (bodyAt0 startPt) (fun _ => bodyPost m c startPt) := by
  have h1 : (startPt : Fin cfg0.N).val < 32 := by show 0 < 32; omega
  have hc0 : AtStart (grid0.coords startPt) := (atStart_iff startPt).mpr rfl
  have hc1 : InFirstPass (grid0.coords startPt) := (inFirstPass_iff startPt).mpr h1
  have hc2 : ¬InSecondPass (grid0.coords startPt) := fun h => absurd ((inSecondPass_iff startPt).mp h) (by show ¬32 ≤ 0; omega)
  unfold pointPre bodyPost bodyAt0
  rw [show (dats m 0 c).owesAt () (startPt : Fin cfg0.N).succ = (dats m 0 c).owesAt () (startPt : Fin cfg0.N).castSucc from rfl]
  rw [show (dats m 0 c).Φ (startPt : Fin cfg0.N).succ = carried m c 1 from rfl]
  rw [leaves0 m c startPt, leaves1 m c startPt, leaves2 m c startPt, leaves3 m c startPt, leaves4 m c startPt, leaves5 m c startPt, leaves6 m c startPt, leaves7 m c startPt, leaves8 m c startPt]
  rw [leaves9_first m c startPt h1]
  rw [show carried m c (startPt : Fin cfg0.N).val = Pipeline.ΦA spec0 c from rfl, scratchAny_eq, carried_pos m c 1 (by omega)]
  iintro ⟨⟨⟨HS0, HS1, ⟨%y0, HS2⟩, ⟨%y1, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runStart c (grid0.coords startPt) _ _ _ _ _ _ _ _ _ _ _ _ _ _ _ _ _ _ _ _ _ _ _ _ _ _ _ _ hc0 hc1 hc2 (iblk m c 0 startPt) (iblk m c 1 startPt) (iblk m c 2 startPt) (iblk m c 3 startPt) (iblk m c 4 startPt) (iblk m c 5 startPt) (iblk m c 6 startPt) (iblk m c 7 startPt) (iblk m c 8 startPt) ((dats m 0 c).before 9 startPt d9) y0 y1).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, ⟨%f0, HS0⟩, ⟨%f1, HS1⟩, HS2, HS3⟩
  isplitl [HS0 HS1 HS2 HS3 Hg]
  · isplitl [HS0 HS1 HS2 HS3]
    · isplitl [HS0]
      · unfold owns; iexists _; isplitr; swap; · iexact HS0
        ipureintro; exact start_proj0 c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1 f0
      isplitl [HS1]
      · unfold owns; iexists _; isplitr; swap; · iexact HS1
        ipureintro; exact start_proj1 c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1 f1
      isplitl [HS2]
      · iexists _; isplitr; swap
        · unfold owns; iexists _; isplitr; swap; · iexact HS2
          ipureintro; rfl
        · ipureintro
          exact filledTo_step (mid0 m c) (midBlock0 m c 0 h1) startPt h1 (mid0_block m c startPt h1) y0 _ (filledTo_zero _ _)
            (start_mid0_in c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1)
            (start_mid0_out c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1)
      · iexists _; isplitr; swap
        · unfold owns; iexists _; isplitr; swap; · iexact HS3
          ipureintro; rfl
        · ipureintro
          exact filledTo_step (mid1 m c) (midBlock1 m c 0 h1) startPt h1 (mid1_block m c startPt h1) y1 _ (filledTo_zero _ _)
            (start_mid1_in c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1)
            (start_mid1_out c (grid0.coords startPt) _ _ _ _ _ _ _ _ _ _ _ _ _ _ _ _ _ _ _ _ _ _ _ _ _ _ _ _ (iblk m c 0 startPt) (iblk m c 1 startPt) (iblk m c 2 startPt) (iblk m c 3 startPt) (iblk m c 4 startPt) (iblk m c 5 startPt) (iblk m c 6 startPt) (iblk m c 7 startPt) (iblk m c 8 startPt) hc0 hc1 hc2 _ y0 y1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.KernelIdeal.Carry

end
-- ==== Proof.KI.BodyFirst.lean ====
/-
  The body obligation at a later point t of the first pass: the projections stay, and each intermediate, filled
  up to block t, comes back filled up to block t + 1.
-/
import proofs.«116479_g53661321397056_cont_9to1_m_18_15_alg».proof.Proof.KI.Invariant

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem body_first (c : Dev nD) (t : Fin cfg0.N) (h0 : t.val ≠ 0) (h1 : t.val < 32) : pointPre m c t ⊢ wp frame (wpE (defs₀ (F := F)) Variants.none c none) Set.univ (bodyAt0 t) (fun _ => bodyPost m c t) := by
  have hc0 : ¬AtStart (grid0.coords t) := fun h => h0 ((atStart_iff t).mp h)
  have hc1 : InFirstPass (grid0.coords t) := (inFirstPass_iff t).mpr h1
  have hc2 : ¬InSecondPass (grid0.coords t) := fun h => absurd ((inSecondPass_iff t).mp h) (by omega)
  unfold pointPre bodyPost bodyAt0
  rw [show (dats m 0 c).owesAt () t.succ = (dats m 0 c).owesAt () t.castSucc from rfl]
  rw [show (dats m 0 c).Φ t.succ = carried m c (t.val + 1) from rfl]
  rw [leaves0 m c t, leaves1 m c t, leaves2 m c t, leaves3 m c t, leaves4 m c t, leaves5 m c t, leaves6 m c t, leaves7 m c t, leaves8 m c t]
  rw [leaves9_first m c t h1]
  rw [carried_pos m c t.val h0, carried_pos m c (t.val + 1) (by omega)]
  iintro ⟨⟨⟨HS0, HS1, ⟨%y0, %hy0, HS2⟩, ⟨%y1, %hy1, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runFirst c (grid0.coords t) _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) ((dats m 0 c).before 9 t d9) (proj0 m c) (proj1 m c) y0 y1).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr; swap
        · unfold owns; iexists _; isplitr; swap; · iexact HS2
          ipureintro; rfl
        · ipureintro
          exact filledTo_step (mid0 m c) (midBlock0 m c t.val h1) t h1 (mid0_block m c t h1) y0 _ hy0
            (first_mid0_in c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 _ (proj0 m c) (proj1 m c) y0 y1)
            (first_mid0_out c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 _ (proj0 m c) (proj1 m c) y0 y1)
      · iexists _; isplitr; swap
        · unfold owns; iexists _; isplitr; swap; · iexact HS3
          ipureintro; rfl
        · ipureintro
          exact filledTo_step (mid1 m c) (midBlock1 m c t.val h1) t h1 (mid1_block m c t h1) y1 _ hy1
            (first_mid1_in c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 _ (proj0 m c) (proj1 m c) y0 y1)
            (first_mid1_out c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 _ (proj0 m c) (proj1 m c) y0 y1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.KernelIdeal.Carry

end
-- ==== Proof.KI.BodySecond.lean ====
/-
  The body obligation at a point t of the second pass: both intermediates are complete, the scratch buffers are
  only read, and the output window's buffer comes back holding the point's two slabs.
-/
import proofs.«116479_g53661321397056_cont_9to1_m_18_15_alg».proof.Proof.KI.Invariant

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem body_second (c : Dev nD) (t : Fin cfg0.N) (h2 : 32 ≤ t.val) : pointPre m c t ⊢ wp frame (wpE (defs₀ (F := F)) Variants.none c none) Set.univ (bodyAt0 t) (fun _ => bodyPost m c t) := by
  have hc0 : ¬AtStart (grid0.coords t) := fun h => absurd ((atStart_iff t).mp h) (by omega)
  have hc1 : ¬InFirstPass (grid0.coords t) := fun h => absurd ((inFirstPass_iff t).mp h) (by omega)
  have hc2 : InSecondPass (grid0.coords t) := (inSecondPass_iff t).mpr h2
  unfold pointPre bodyPost bodyAt0
  rw [show (dats m 0 c).owesAt () t.succ = (dats m 0 c).owesAt () t.castSucc from rfl]
  rw [show (dats m 0 c).Φ t.succ = carried m c (t.val + 1) from rfl]
  rw [leaves0 m c t, leaves1 m c t, leaves2 m c t, leaves3 m c t, leaves4 m c t, leaves5 m c t, leaves6 m c t, leaves7 m c t, leaves8 m c t]
  rw [leaves9_second m c t h2]
  rw [carried_pos m c t.val (by omega), carried_pos m c (t.val + 1) (by omega)]
  iintro ⟨⟨⟨HS0, HS1, ⟨%y0, %hy0, HS2⟩, ⟨%y1, %hy1, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl := filledTo_all h2 hy0
  obtain rfl := filledTo_all h2 hy1
  iapply ((runSecond c (grid0.coords t) _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) (proj0 m c) (proj1 m c) (mid0 m c) (mid1 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, ⟨%f9, H9⟩, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr; · ipureintro; exact filledTo_self _ _
        iexact HS2
      iexists _; isplitr; · ipureintro; exact filledTo_self _ _
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr; swap; · iexact H9
  ipureintro; exact second_out c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) hc0 hc1 hc2 (proj0 m c) (proj1 m c) (mid0 m c) (mid1 m c) f9

end Cert.KernelIdeal.Carry

end
-- ==== Proof.KI.FrameRun.lean ====
/-
  The frame run. At every grid point the body meets its obligation (one of the three cases); the launch hands the
  region scratch buffers holding anything, which is the invariant before the first point, and after the last point
  the invariant's named contents are forgotten again. So every weakly fair execution terminates without a fault,
  leaves every argument array as it was, and leaves the result array at what the write-backs of the second pass
  make of it.
-/
import proofs.«116479_g53661321397056_cont_9to1_m_18_15_alg».proof.Proof.KI.BodyStart
import proofs.«116479_g53661321397056_cont_9to1_m_18_15_alg».proof.Proof.KI.BodyFirst
import proofs.«116479_g53661321397056_cont_9to1_m_18_15_alg».proof.Proof.KI.BodySecond

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  rw [bodyPre_eq]
  by_cases h1 : t.val < 32
  · by_cases h0 : t.val = 0
    · obtain rfl : t = startPt := Fin.ext h0
      exact body_start m c
    · exact body_first m c t h0 h1
  · exact body_second m c t (by omega)

theorem body_obligation (c : Dev nD) : BodyObligation (dats (F := F) m 0 c) (defs₀ (F := F)) Variants.none () Set.univ := fun t => by
  rw [bigSep_W0, bigSep_W0]
  exact sound_body m c t

theorem entry (c : Dev nD) : Pipeline.ΦA spec0 c ⊢ (dats m 0 c).Φ 0 := by
  rw [show (dats m 0 c).Φ 0 = carried m c 0 from rfl, carried_zero]
  try exact Idealize.SL.BI.Entails.refl _

theorem exit (c : Dev nD) : (dats m 0 c).Φ (Fin.last cfg0.N) ⊢ Pipeline.ΦA spec0 c := by
  rw [show (dats m 0 c).Φ (Fin.last cfg0.N) = carried m c 64 from rfl, carried_pos m c 64 (by omega), scratchAny_eq]
  iintro ⟨⟨HS0, HS1, ⟨%y0, -, HS2⟩, ⟨%y1, -, HS3⟩⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- Every weakly fair execution terminates; every window's array ends at what the proof data's write-backs make
    of it (an input: as it was), every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := entry m) (hout := exit m)

/-- The frame: the run, read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Carry

end
-- ==== Proof.KI.ResultArray.lean ====
/-
  From blocks to the array. A second-pass point t writes back, for both slabs, rows 128 (t - 32) .. 128 (t - 32) + 127:
  what it leaves in the output window's buffer is that block of ONE array, the specification's result with every
  product in the kernel's factor order; the 32 write-backs cover the array; so the result array ends holding it.
  Commuting the products where they stand, it is the specification's result of the arguments as launched.
-/
import proofs.«116479_g53661321397056_cont_9to1_m_18_15_alg».proof.Proof.KI.SlabAt
import proofs.«116479_g53661321397056_cont_9to1_m_18_15_alg».proof.Proof.KI.FrameRun

set_option maxRecDepth 16384

noncomputable section

namespace Cert.KernelIdeal.ValueLeg

open Cert.KernelIdeal Cert.KernelIdeal.Gen Cert.KernelIdeal.Carry
open Idealize.ShloMosaic Idealize.ShloMosaic.TcCoe Idealize.SL.Sem Idealize.ShloMosaic.ValueIdx
open Idealize.ShloMosaic.Pipeline (Dat)
open scoped BigOperators

/-! ## The two slabs of the output window's buffer -/

section Slabs
variable {F : FTy → Type} [FloatOps F] (y0 y1 : Vec F S64x4096 .f32) (b0 b1 : Vec F S128x4096 .f32)

theorem outSlabs_slab0 (q' : Fin 128) (d : Fin 64) :
    outSlabs y0 y1 b0 b1 (ix3 (0 : Fin 2) q' d) = k0_pay5 y0 b0 (ix3 (0 : Fin 1) q' d) := by
  unfold outSlabs
  rw [View.canon_cons_of_not_mem _ _ (by
    intro hm; rw [Rect.mem_set_unit] at hm; have h0 : 1 ≤ 0 := (hm (0 : Fin 3)).1; omega)]
  have e : ix3 (0 : Fin 2) q' d = (Rect.unit (s := S2x128x64) ![0, 0, 0] S1x128x64.size inb_S2x128x64_S1x128x64_0_0_0).emb (ix3 (0 : Fin 1) q' d) :=
    funext fun a => Fin.ext (by
      match a with
      | ⟨0, _⟩ => show 0 = 0 + 1 * 0; rfl
      | ⟨1, _⟩ => show q'.val = 0 + 1 * q'.val; omega
      | ⟨2, _⟩ => show d.val = 0 + 1 * d.val; omega)
  rw [e]; exact View.canon_cons_emb _ _ _ _

theorem outSlabs_slab1 (q' : Fin 128) (d : Fin 64) :
    outSlabs y0 y1 b0 b1 (ix3 (1 : Fin 2) q' d) = k0_pay6 y1 b1 (ix3 (0 : Fin 1) q' d) := by
  unfold outSlabs
  have e : ix3 (1 : Fin 2) q' d = (Rect.unit (s := S2x128x64) ![1, 0, 0] S1x128x64.size inb_S2x128x64_S1x128x64_1_0_0).emb (ix3 (0 : Fin 1) q' d) :=
    funext fun a => Fin.ext (by
      match a with
      | ⟨0, _⟩ => show 1 = 1 + 1 * 0; rfl
      | ⟨1, _⟩ => show q'.val = 0 + 1 * q'.val; omega
      | ⟨2, _⟩ => show d.val = 0 + 1 * d.val; omega)
  rw [e]; exact View.canon_cons_emb _ _ _ _

end Slabs

variable (m : (ℓ : Loc nD τ sig) → Buf (Elt Ideal) ℓ) (ρ : Dev nD → PrngReg)

/-! ## The one array -/

/-- The result with every product in the kernel's order, of the arrays as the region finds them. -/
def resultT (c : Dev nD) : S2x4096x64.Idx → Elt Ideal .f32 := fun i =>
  if (i 0).val = 0 then Cert.Spec.slabAtT (inputA m c) (invBasisA0 m c) (basisA0 m c) (weightA0 m c) (scaleA0 m c) (i 1) (i 2)
  else Cert.Spec.slabAtT (inputA m c) (invBasisA1 m c) (basisA1 m c) (weightA1 m c) (scaleA1 m c) (i 1) (i 2)

/-- What second-pass point t leaves in the output window's buffer is block t of that array. -/
theorem out_block (c : Dev nD) (t : Fin cfg0.N) (h2 : 32 ≤ t.val) :
    outAt m c t = ((cfg0.win 9).blk t).view.read (Elt Ideal) (resultT m c) := by
  obtain ⟨e0, e1, e2, e3, e4, e5, e6⟩ := second_idx t h2
  refine funext fun (j : S2x128x64.Idx) => ?_
  obtain ⟨u, q', d, rfl⟩ : ∃ (u : Fin 2) (q' : Fin 128) (d : Fin 64), j = ix3 u q' d := ⟨j 0, j 1, j 2, eq_ix3 j⟩
  have hemb : ((cfg0.win 9).blk t).view.emb (ix3 u q' d) = ix3 u (outRow t q') d := funext fun a => Fin.ext (by
    match a with
    | ⟨0, _⟩ => show win0_9.index t (0 : Fin 3) * 2 + 1 * u.val = u.val; omega
    | ⟨1, _⟩ => show win0_9.index t (1 : Fin 3) * 128 + 1 * q'.val = 128 * (t.val - 32) + q'.val; omega
    | ⟨2, _⟩ => show win0_9.index t (2 : Fin 3) * 64 + 1 * d.val = d.val; omega)
  show outSlabs (mid0 m c) (mid1 m c) (iblk m c 3 t) (iblk m c 4 t) (ix3 u q' d) = resultT m c (((cfg0.win 9).blk t).view.emb (ix3 u q' d))
  rw [hemb]
  unfold resultT
  by_cases hu : u.val = 0
  · obtain rfl : u = 0 := Fin.ext hu
    rw [if_pos (show ((ix3 (0 : Fin 2) (outRow t q') d) 0).val = 0 from rfl), outSlabs_slab0]
    exact slab0_entry m c t h2 q' d
  · obtain rfl : u = 1 := Fin.ext (by have := u.isLt; omega)
    rw [if_neg (show ¬((ix3 (1 : Fin 2) (outRow t q') d) 0).val = 0 from Nat.one_ne_zero), outSlabs_slab1]
    exact slab1_entry m c t h2 q' d

/-- An index of the result array is in point t's block iff each coordinate is in the block's range. -/
theorem mem_outBlock (t : Fin cfg0.N) (i : S2x4096x64.Idx) :
    i ∈ ((cfg0.win 9).blk t).view.set ↔ ∀ a : Fin 3, win0_9.index t a * S2x128x64.size a ≤ (i a).val ∧ (i a).val < win0_9.index t a * S2x128x64.size a + S2x128x64.size a := by
  show i ∈ ((View.whole main_v2).slice (win0_9.rect t)).set ↔ _
  rw [View.set_slice_whole, Rect.mem_set_unit]
  exact Iff.rfl

/-- Every index is in the block some second-pass point writes back: row q is in point 32 + q / 128's. -/
theorem covered (i : S2x4096x64.Idx) : ∃ t : Fin cfg0.N, (cfg0.win 9).flush t = true ∧ i ∈ ((cfg0.win 9).blk t).view.set := by
  have h0 : (i 0).val < 2 := (i 0).isLt
  have h1 : (i 1).val < 4096 := (i 1).isLt
  have h2 : (i 2).val < 64 := (i 2).isLt
  have hlt : 32 + (i 1).val / 128 < cfg0.N := by rw [N_eq]; omega
  have ht : 32 ≤ (⟨32 + (i 1).val / 128, hlt⟩ : Fin cfg0.N).val := Nat.le_add_right _ _
  obtain ⟨e0, e1, e2, e3, e4, e5, e6⟩ := second_idx ⟨32 + (i 1).val / 128, hlt⟩ ht
  have e5' : win0_9.index ⟨32 + (i 1).val / 128, hlt⟩ (1 : Fin 3) = (i 1).val / 128 := by rw [e5]; show 32 + (i 1).val / 128 - 32 = _; omega
  refine ⟨⟨32 + (i 1).val / 128, hlt⟩, (outFlush_iff _).mpr ht, ?_⟩
  rw [mem_outBlock]
  intro a
  match a with
  | ⟨0, _⟩ => show win0_9.index _ (0 : Fin 3) * 2 ≤ (i 0).val ∧ (i 0).val < win0_9.index _ (0 : Fin 3) * 2 + 2; omega
  | ⟨1, _⟩ => show win0_9.index _ (1 : Fin 3) * 128 ≤ (i 1).val ∧ (i 1).val < win0_9.index _ (1 : Fin 3) * 128 + 128; omega
  | ⟨2, _⟩ => show win0_9.index _ (2 : Fin 3) * 64 ≤ (i 2).val ∧ (i 2).val < win0_9.index _ (2 : Fin 3) * 64 + 64; omega

/-- The result array after the run. -/
theorem final_array (c : Dev nD) : (dats m 0 c).arrAt 9 cfg0.N = resultT m c :=
  (dats m 0 c).arrAt_eq_of_cover 9 (resultT m c) (fun t hf => by
    show (cfg0.win 9).cut (grid0.coords t) ((dats m 0 c).after 9 t) = _
    rw [after9]
    exact out_block m c t ((outFlush_iff t).mp hf)) covered

/-- It is the specification's result of the arguments as launched. -/
theorem resultT_eq (c : Dev nD) : resultT m c = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  unfold resultT Cert.Spec.result inputA invBasisA0 basisA0 invBasisA1 basisA1 weightA0 weightA1 scaleA0 scaleA1
  rw [V_main_arg0, V_main_arg1, V_main_arg2, V_main_arg3, V_main_arg4, V_main_arg5, V_main_arg6]
  by_cases h : (i 0).val = 0
  · rw [if_pos h, if_pos h]; exact Cert.Spec.slabAtT_eq _ _ _ _ _ _ _
  · rw [if_neg h, if_neg h]; exact Cert.Spec.slabAtT_eq _ _ _ _ _ _ _

/-! ## The run, read -/

/-- Every weakly fair execution of the idealized kernel terminates with the result array at the specification's
    result of the arguments, and the arguments unchanged. -/
theorem kernel_run : θ_run defs (onTc (τ := τ) (main (F := Ideal))) ⟨m, fun _ => 0, ρ⟩ fun r => ∀ c : Dev nD,
      r.2.mem ((c.tc : Thread nD τ).loc main_v2) = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(((h c).1 9).trans (final_array m c)).trans (resultT_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.ValueLeg

end
-- ==== Proof.RefSide.lean ====
/-
  The reference program's result, read one entry at a time: entry (s, q, d) of what it returns is the specification's
  slab s at (q, d). Each scale is a chain of three matrix products and one row scaling, read off the generated
  stage lemmas; the two slabs are stacked along a new leading axis and clamped below at zero.
-/
import proofs.«116479_g53661321397056_cont_9to1_m_18_15_alg».proof.Defs
import proofs.«116479_g53661321397056_cont_9to1_m_18_15_alg».proof.Proof.Gen.ReferenceIdeal.Read
import proofs.«116479_g53661321397056_cont_9to1_m_18_15_alg».proof.Proof.Spec
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read
open Idealize.ShloMosaic Idealize.ShloMosaic.TcCoe Idealize.SL.Sem Idealize.ShloMosaic.ValueIdx
open scoped BigOperators

/-! ## The stage lemmas' index functions at a pair of coordinates -/

theorem lidx0 (q : Fin 4096) (d : Fin 64) (k : Fin 64) : lidx_main_v0 (ix2 q d) k = ix2 q k :=
  funext fun a => Fin.ext (by match a with | ⟨0, _⟩ => rfl | ⟨1, _⟩ => rfl)
theorem ridx0 (q : Fin 4096) (d : Fin 64) (k : Fin 64) : ridx_main_v0 (ix2 q d) k = ix2 k d :=
  funext fun a => Fin.ext (by match a with | ⟨0, _⟩ => rfl | ⟨1, _⟩ => rfl)
theorem lidx1 (q : Fin 4096) (d : Fin 64) (k : Fin 4096) : lidx_main_v1 (ix2 q d) k = ix2 q k :=
  funext fun a => Fin.ext (by match a with | ⟨0, _⟩ => rfl | ⟨1, _⟩ => rfl)
theorem ridx1 (q : Fin 4096) (d : Fin 64) (k : Fin 4096) : ridx_main_v1 (ix2 q d) k = ix2 k d :=
  funext fun a => Fin.ext (by match a with | ⟨0, _⟩ => rfl | ⟨1, _⟩ => rfl)
theorem lidx4 (q : Fin 4096) (d : Fin 64) (k : Fin 4096) : lidx_main_v4 (ix2 q d) k = ix2 q k :=
  funext fun a => Fin.ext (by match a with | ⟨0, _⟩ => rfl | ⟨1, _⟩ => rfl)
theorem ridx4 (q : Fin 4096) (d : Fin 64) (k : Fin 4096) : ridx_main_v4 (ix2 q d) k = ix2 k d :=
  funext fun a => Fin.ext (by match a with | ⟨0, _⟩ => rfl | ⟨1, _⟩ => rfl)
theorem lidx5 (q : Fin 4096) (d : Fin 64) (k : Fin 64) : lidx_main_v5 (ix2 q d) k = ix2 q k :=
  funext fun a => Fin.ext (by match a with | ⟨0, _⟩ => rfl | ⟨1, _⟩ => rfl)
theorem ridx5 (q : Fin 4096) (d : Fin 64) (k : Fin 64) : ridx_main_v5 (ix2 q d) k = ix2 k d :=
  funext fun a => Fin.ext (by match a with | ⟨0, _⟩ => rfl | ⟨1, _⟩ => rfl)
theorem lidx6 (q : Fin 4096) (d : Fin 64) (k : Fin 4096) : lidx_main_v6 (ix2 q d) k = ix2 q k :=
  funext fun a => Fin.ext (by match a with | ⟨0, _⟩ => rfl | ⟨1, _⟩ => rfl)
theorem ridx6 (q : Fin 4096) (d : Fin 64) (k : Fin 4096) : ridx_main_v6 (ix2 q d) k = ix2 k d :=
  funext fun a => Fin.ext (by match a with | ⟨0, _⟩ => rfl | ⟨1, _⟩ => rfl)
theorem lidx9 (q : Fin 4096) (d : Fin 64) (k : Fin 4096) : lidx_main_v9 (ix2 q d) k = ix2 q k :=
  funext fun a => Fin.ext (by match a with | ⟨0, _⟩ => rfl | ⟨1, _⟩ => rfl)
theorem ridx9 (q : Fin 4096) (d : Fin 64) (k : Fin 4096) : ridx_main_v9 (ix2 q d) k = ix2 k d :=
  funext fun a => Fin.ext (by match a with | ⟨0, _⟩ => rfl | ⟨1, _⟩ => rfl)

variable (x0 : (⟨S4096x64, .f32⟩ : BufTy).Contents (Elt Ideal)) (x1 x2 x3 x4 : (⟨S4096x4096, .f32⟩ : BufTy).Contents (Elt Ideal))
  (x5 x6 : (⟨S64x64, .f32⟩ : BufTy).Contents (Elt Ideal)) (x7 x8 : (⟨S4096x1, .f32⟩ : BufTy).Contents (Elt Ideal))

/-- One scale's product chain at (q, d): basis row q against the scaled, transformed, projected input's column d. -/
theorem chain0_at (q : Fin 4096) (d : Fin 64) :
    val_main_v4 (F := Ideal) x0 x1 x2 x5 x7 (ix2 q d)
      = ∑ r : Fin 4096, x2 (ix2 q r) * (x7 (ix2 r (0 : Fin 1)) * ∑ n : Fin 4096, x1 (ix2 r n) * ∑ j : Fin 64, x0 (ix2 n j) * x5 (ix2 j d)) := by
  rw [val_main_v4_apply]
  refine Finset.sum_congr rfl fun r _ => ?_
  rw [lidx4, ridx4, val_main_v3_apply, val_main_v2_apply, val_main_v1_apply]
  refine congrArg (x2 (ix2 q r) * ·) ?_
  show x7 (idx_main_v2 (ix2 r d)) * _ = _
  rw [show idx_main_v2 (ix2 r d) = ix2 r (0 : Fin 1) from funext fun a => Fin.ext (by match a with | ⟨0, _⟩ => rfl | ⟨1, _⟩ => rfl)]
  refine congrArg (x7 (ix2 r (0 : Fin 1)) * ·) (Finset.sum_congr rfl fun n _ => ?_)
  rw [lidx1, ridx1, val_main_v0_apply]
  refine congrArg (x1 (ix2 r n) * ·) (Finset.sum_congr rfl fun j _ => ?_)
  rw [lidx0, ridx0]

/-- One scale's product chain at (q, d): basis row q against the scaled, transformed, projected input's column d. -/
theorem chain1_at (q : Fin 4096) (d : Fin 64) :
    val_main_v9 (F := Ideal) x0 x3 x4 x6 x8 (ix2 q d)
      = ∑ r : Fin 4096, x4 (ix2 q r) * (x8 (ix2 r (0 : Fin 1)) * ∑ n : Fin 4096, x3 (ix2 r n) * ∑ j : Fin 64, x0 (ix2 n j) * x6 (ix2 j d)) := by
  rw [val_main_v9_apply]
  refine Finset.sum_congr rfl fun r _ => ?_
  rw [lidx9, ridx9, val_main_v8_apply, val_main_v7_apply, val_main_v6_apply]
  refine congrArg (x4 (ix2 q r) * ·) ?_
  show x8 (idx_main_v7 (ix2 r d)) * _ = _
  rw [show idx_main_v7 (ix2 r d) = ix2 r (0 : Fin 1) from funext fun a => Fin.ext (by match a with | ⟨0, _⟩ => rfl | ⟨1, _⟩ => rfl)]
  refine congrArg (x8 (ix2 r (0 : Fin 1)) * ·) (Finset.sum_congr rfl fun n _ => ?_)
  rw [lidx6, ridx6, val_main_v5_apply]
  refine congrArg (x3 (ix2 r n) * ·) (Finset.sum_congr rfl fun j _ => ?_)
  rw [lidx5, ridx5]

/-- The returned array at an entry is the specification's. -/
theorem result_at (i : S2x4096x64.Idx) :
    val_main_v13 (F := Ideal) x0 x1 x2 x3 x4 x5 x6 x7 x8 i = Cert.Spec.result x0 x1 x2 x3 x4 x5 x6 x7 x8 i := by
  obtain ⟨s, q, d, rfl⟩ : ∃ (s : Fin 2) (q : Fin 4096) (d : Fin 64), i = ix3 s q d := ⟨i 0, i 1, i 2, eq_ix3 i⟩
  rw [val_main_v13_apply, val_main_call0_v0_apply, val_main_call0_cst_apply]
  unfold Cert.Spec.result Cert.Spec.slabAt
  show max (val_main_v12 (F := Ideal) x0 x1 x2 x3 x4 x5 x6 x7 x8 (ix3 s q d)) (Ideal.ofBits .f32 0x00000000#32) = _
  rw [Ideal.ofBits_zero_f32]
  unfold val_main_v12
  by_cases hs : s.val = 0
  · rw [if_pos (show ((ix3 s q d) 0).val = 0 from hs)]
    refine congrArg (max · 0) ?_
    refine (concatenate_pair_apply_left (t := S2x4096x64) (s₁ := S1x4096x64) (s₂ := S1x4096x64) (0 : Fin 3) _ _ concatenates_S1x4096x64_S1x4096x64_S2x4096x64_d0 (ix3 s q d) rfl (ix3 (0 : Fin 1) q d)
      (fun b => match b with | ⟨0, _⟩ => hs.symm | ⟨1, _⟩ => rfl | ⟨2, _⟩ => rfl)).trans ?_
    rw [val_main_v10_apply, show idx_main_v10 (ix3 (0 : Fin 1) q d) = ix2 q d from
      funext fun a => Fin.ext (by match a with | ⟨0, _⟩ => rfl | ⟨1, _⟩ => rfl)]
    exact chain0_at x0 x1 x2 x5 x7 q d
  · have hs1 : s.val = 1 := by omega
    rw [if_neg (show ¬((ix3 s q d) 0).val = 0 from hs)]
    refine congrArg (max · 0) ?_
    refine (concatenate_pair_apply_right (t := S2x4096x64) (s₁ := S1x4096x64) (s₂ := S1x4096x64) (0 : Fin 3) _ _ concatenates_S1x4096x64_S1x4096x64_S2x4096x64_d0 (ix3 s q d) rfl rfl (ix3 (0 : Fin 1) q d)
      (fun b hb => match b, hb with | ⟨0, _⟩, hb => absurd rfl hb | ⟨1, _⟩, _ => rfl | ⟨2, _⟩, _ => rfl)
      (by show 0 + 1 = s.val; omega)).trans ?_
    rw [val_main_v11_apply, show idx_main_v11 (ix3 (0 : Fin 1) q d) = ix2 q d from
      funext fun a => Fin.ext (by match a with | ⟨0, _⟩ => rfl | ⟨1, _⟩ => rfl)]
    exact chain1_at x0 x3 x4 x6 x8 q d

end Cert.ReferenceIdeal.RefSide

end
-- ==== Proof.lean ====
/-
  A two-scale wavelet convolution: for each scale, out = max (phi · (k ∘ (phi_inv · (x · W))), 0), the two scales
  stacked. The kernel computes it in two passes over a 2 x 32 grid, keeping everything transposed in four scratch
  arrays: at the first point the two projected inputs (W transposed times x transposed); at point t of the first
  pass column block t of the two scaled intermediates; at point t of the second pass rows 128 (t - 32) .. of both
  output slabs, from the completed intermediates.

  The frames (at the word level and at exact arithmetic alike: one proof, read at either instance) follow the
  scratch arrays point by point: the projections are fixed after the first point, and each intermediate agrees
  with its final value on the column blocks written so far, so that the second pass finds it complete. The value of
  the result array is read off the write-backs of the second pass, which tile it. At exact arithmetic every entry
  of both programs is then the same nest of three sums; the kernel's products have their factors in the other
  order, and the product of extended reals is commutative, so the entries agree without any rearrangement of a sum
  and without using that the inputs are finite. The idealization changed no operation, so there is nothing to
  preserve.
-/
import proofs.«116479_g53661321397056_cont_9to1_m_18_15_alg».proof.Defs
import proofs.«116479_g53661321397056_cont_9to1_m_18_15_alg».proof.Proof.Gen.Kernel
import proofs.«116479_g53661321397056_cont_9to1_m_18_15_alg».proof.Proof.Gen.KernelIdeal
import proofs.«116479_g53661321397056_cont_9to1_m_18_15_alg».proof.Proof.Gen.ReferenceIdeal
import proofs.«116479_g53661321397056_cont_9to1_m_18_15_alg».proof.Proof.Gen.Pre_finite_inputs
import proofs.«116479_g53661321397056_cont_9to1_m_18_15_alg».proof.Proof.Gen.ReferenceIdeal.Run
import proofs.«116479_g53661321397056_cont_9to1_m_18_15_alg».proof.Proof.K.FrameRun
import proofs.«116479_g53661321397056_cont_9to1_m_18_15_alg».proof.Proof.KI.ResultArray
import proofs.«116479_g53661321397056_cont_9to1_m_18_15_alg».proof.Proof.RefSide
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Carry.frame m ρ

/-- So does its reading at exact arithmetic. -/
theorem frame_ideal : Cert.frame_KernelIdeal := fun m ρ _ => Cert.KernelIdeal.Carry.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the specification's result of the (agreeing) arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.ValueLeg.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  funext i
  rw [Cert.ReferenceIdeal.RefSide.result_at]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
